-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S1x2048 : Shape := ⟨2, ![1, 2048]⟩
abbrev S4097x1024 : Shape := ⟨2, ![4097, 1024]⟩
abbrev S4097 : Shape := ⟨1, ![4097]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S4097x1024 : S_.BroadcastsInDim S4097x1024 (![] : Fin 0 → Fin S4097x1024.rank)
  reducesTo_S4097x1024_S_d0_1 : S4097x1024.ReducesTo [0, 1] S_
  bcast_S_S4097 : S_.BroadcastsInDim S4097 (![] : Fin 0 → Fin S4097.rank)
  reducesTo_S4097_S_d0 : S4097.ReducesTo [0] S_

variable [Facts]

def fn_part2 {F : FTy → Type} [FloatOps F] (main_arg7 : FVec F S4097x1024 .f32) (main_arg8 : FVec F S4097x1024 .f32) (main_arg9 : FVec F S4097 .f32) (main_v33 : IVec S_ 1) : IVec S_ 1 :=
  let main_v34 : FVec F S4097x1024 .f32 := Host.absf main_arg7
  let main_cst_12 : FVec F S_ .f32 := constant S_ .f32 0x7F800000#32
  let main_v35 : FVec F S4097x1024 .f32 := broadcastInDim S4097x1024 ![] bcast_S_S4097x1024 main_cst_12
  let main_v36 : IVec S4097x1024 1 := cmpf .olt main_v34 main_v35
  let main_c_13 : IVec S_ 1 := constantI S_ 1 1#1
  let main_v37 : IVec S_ 1 := (fun x v => Host.reduce IntOp.andi x v reducesTo_S4097x1024_S_d0_1 h_S_) main_v36 main_c_13
  let main_v38 : IVec S_ 1 := andi main_v33 main_v37
  let main_v39 : FVec F S4097x1024 .f32 := Host.absf main_arg8
  let main_cst_14 : FVec F S_ .f32 := constant S_ .f32 0x7F800000#32
  let main_v40 : FVec F S4097x1024 .f32 := broadcastInDim S4097x1024 ![] bcast_S_S4097x1024 main_cst_14
  let main_v41 : IVec S4097x1024 1 := cmpf .olt main_v39 main_v40
  let main_c_15 : IVec S_ 1 := constantI S_ 1 1#1
  let main_v42 : IVec S_ 1 := (fun x v => Host.reduce IntOp.andi x v reducesTo_S4097x1024_S_d0_1 h_S_) main_v41 main_c_15
  let main_v43 : IVec S_ 1 := andi main_v38 main_v42
  let main_v44 : FVec F S4097 .f32 := Host.absf main_arg9
  let main_cst_16 : FVec F S_ .f32 := constant S_ .f32 0x7F800000#32
  let main_v45 : FVec F S4097 .f32 := broadcastInDim S4097 ![] bcast_S_S4097 main_cst_16
  let main_v46 : IVec S4097 1 := cmpf .olt main_v44 main_v45
  let main_c_17 : IVec S_ 1 := constantI S_ 1 1#1
  let main_v47 : IVec S_ 1 := (fun x v => Host.reduce IntOp.andi x v reducesTo_S4097_S_d0 h_S_) main_v46 main_c_17
  let main_v48 : IVec S_ 1 := andi main_v43 main_v47
  main_v48

def fn_part1 {F : FTy → Type} [FloatOps F] (main_arg4 : FVec F S1x2048 .f32) (main_arg5 : FVec F S1x2048 .f32) (main_arg6 : FVec F S4097x1024 .f32) (main_arg7 : FVec F S4097x1024 .f32) (main_arg8 : FVec F S4097x1024 .f32) (main_arg9 : FVec F S4097 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S1x2048 .f32 := Host.absf main_arg5
  let main_cst_8 : FVec F S_ .f32 := constant S_ .f32 0x7F800000#32
  let main_v25 : FVec F S1x2048 .f32 := broadcastInDim S1x2048 ![] bcast_S_S1x2048 main_cst_8
  let main_v26 : IVec S1x2048 1 := cmpf .olt main_v24 main_v25
  let main_c_9 : IVec S_ 1 := constantI S_ 1 1#1
  let main_v27 : IVec S_ 1 := (fun x v => Host.reduce IntOp.andi x v reducesTo_S1x2048_S_d0_1 h_S_) main_v26 main_c_9
  let main_v28 : IVec S_ 1 := andi main_v23 main_v27
  let main_v29 : FVec F S4097x1024 .f32 := Host.absf main_arg6
  let main_cst_10 : FVec F S_ .f32 := constant S_ .f32 0x7F800000#32
  let main_v30 : FVec F S4097x1024 .f32 := broadcastInDim S4097x1024 ![] bcast_S_S4097x1024 main_cst_10
  let main_v31 : IVec S4097x1024 1 := cmpf .olt main_v29 main_v30
  let main_c_11 : IVec S_ 1 := constantI S_ 1 1#1
  let main_v32 : IVec S_ 1 := (fun x v => Host.reduce IntOp.andi x v reducesTo_S4097x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S1024x2048 .f32) (main_arg1 : FVec F S1024x2048 .f32) (main_arg2 : FVec F S1024x2048 .f32) (main_arg3 : FVec F S1024x2048 .f32) (main_arg4 : FVec F S1x2048 .f32) (main_arg5 : FVec F S1x2048 .f32) (main_arg6 : FVec F S4097x1024 .f32) (main_arg7 : FVec F S4097x1024 .f32) (main_arg8 : FVec F S4097x1024 .f32) (main_arg9 : FVec F S4097 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_v13 main_v16
-- ==== Kernel.lean ====
abbrev S1024x2048 : Shape := ⟨2, ![1024, 2048]⟩
abbrev S1x2048 : Shape := ⟨2, ![1, 2048]⟩
abbrev S4097x1024 : Shape := ⟨2, ![4097, 1024]⟩
abbrev S4097 : Shape := ⟨1, ![4097]⟩
abbrev S4096x1024 : Shape := ⟨2, ![4096, 1024]⟩
abbrev S4096 : Shape := ⟨1, ![4096]⟩
abbrev S4096x1 : Shape := ⟨2, ![4096, 1]⟩
abbrev S1x1024 : Shape := ⟨2, ![1, 1024]⟩
abbrev S1 : Shape := ⟨1, ![1]⟩
abbrev S1x1 : Shape := ⟨2, ![1, 1]⟩
abbrev S4096x3072 : Shape := ⟨2, ![4096, 3072]⟩
abbrev S1024x128 : Shape := ⟨2, ![1024, 128]⟩
abbrev S1x128 : Shape := ⟨2, ![1, 128]⟩
abbrev S3072x128 : Shape := ⟨2, ![3072, 128]⟩
abbrev S4096x128 : Shape := ⟨2, ![4096, 128]⟩

abbrev nBuf : Space → Nat
  | .hbm => 25
  | .vmem => 24
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1x2048, .f32⟩
  | .hbm, ⟨5, _⟩ => ⟨S1x2048, .f32⟩
  | .hbm, ⟨6, _⟩ => ⟨S4097x1024, .f32⟩
  | .hbm, ⟨7, _⟩ => ⟨S4097x1024, .f32⟩
  | .hbm, ⟨8, _⟩ => ⟨S4097x1024, .f32⟩
  | .hbm, ⟨9, _⟩ => ⟨S4097, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096, .f32⟩
  | .hbm, ⟨14, _⟩ => ⟨S4096x1, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1, .f32⟩
  | .hbm, ⟨19, _⟩ => ⟨S1x1, .f32⟩
  | .hbm, ⟨20, _⟩ => ⟨S4096x3072, .f32⟩
  | .hbm, ⟨21, _⟩ => ⟨S4096x3072, .bf16⟩
  | .hbm, ⟨22, _⟩ => ⟨S1024x2048, .f32⟩
  | .hbm, ⟨23, _⟩ => ⟨S1024x2048, .f32⟩
  | .hbm, ⟨24, _⟩ => ⟨S1x2048, .f32⟩
  | .local _ .vmem, ⟨0, _⟩ => ⟨S4096x3072, .bf16⟩
  | .local _ .vmem, ⟨1, _⟩ => ⟨S4096x1, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1x128, .f32⟩
  | .local _ .vmem, ⟨23, _⟩ => ⟨S1x128, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S4097x1024_S4096x1024_0_0 : S4097x1024.Slices ![0, 0] S4096x1024
  slices_S4097_S4096_0 : S4097.Slices ![0] S4096
  shapeCasts_S4096_S4096x1 : S4096.ShapeCasts S4096x1
  slices_S4097x1024_S1x1024_4096_0 : S4097x1024.Slices ![4096, 0] S1x1024
  slices_S4097_S1_4096 : S4097.Slices ![4096] S1
  shapeCasts_S1_S1x1 : S1.ShapeCasts S1x1
  concatenates_S4096x1024_S4096x1024_S4096x1024_S4096x3072_d1 : Shape.Concatenates [S4096x1024, S4096x1024, S4096x1024] S4096x3072 1
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  inb_S1x128_S1x128_0_0 : ∀ a, (![0, 0] : Fin 2 → Nat) a + S1x128.size a ≤ S1x128.size a
  h_S1x128 : 0 < S1x128.numel
  broadcasts_S1x128_S1024x128 : S1x128.Broadcasts S1024x128
  concatenates_S1024x128_S1024x128_S1024x128_S3072x128_d0 : Shape.Concatenates [S1024x128, S1024x128, S1024x128] S3072x128 0
  inb_S4096x3072_S4096x3072_0_0 : ∀ a, (![0, 0] : Fin 2 → Nat) a + S4096x3072.size a ≤ S4096x3072.size a
  h_S4096x3072 : 0 < S4096x3072.numel
  shapeCasts_S4096x3072_S4096x3072 : S4096x3072.ShapeCasts S4096x3072
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  slices_S4096x128_o0_0_S1024x128 : S4096x128.Slices ![0, 0] S1024x128
  slices_S4096x128_o1024_0_S1024x128 : S4096x128.Slices ![1024, 0] S1024x128
  slices_S4096x128_o2048_0_S1024x128 : S4096x128.Slices ![2048, 0] S1024x128
  slices_S4096x128_o3072_0_S1024x128 : S4096x128.Slices ![3072, 0] S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x128 : S1x1.Broadcasts S1x128
  natLt_1_32 : 1 < 32
  shapeCasts_S1x128_S1x128 : S1x128.ShapeCasts S1x128
  dot_S4096x3072_S3072x128_S4096x128_1_0_0_1_n_n_wf : DotDims.WF S4096x3072 S3072x128 S4096x128 [1] [0] [0] [1] [] []
  dot_S1x1024_S1024x128_S1x128_1_0_0_1_n_n_wf : DotDims.WF S1x1024 S1024x128 S1x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x3072.size a ≤ S4096x3072.size a
  hwx0_0 : ∀ i : grid0.Coords, EltTy.bits .bf16 = 32 ∨ (Rect.block (s := S4096x3072) S4096x3072.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S4096x1.size a
  hwx0_1 : ∀ i : grid0.Coords, EltTy.bits .f32 = 32 ∨ (Rect.block (s := S4096x1) S4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S1024x2048.size a
  hwx0_6 : ∀ i : grid0.Coords, EltTy.bits .f32 = 32 ∨ (Rect.block (s := S1024x2048) S1024x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S1024x2048.size a
  hwx0_7 : ∀ i : grid0.Coords, EltTy.bits .f32 = 32 ∨ (Rect.block (s := S1024x2048) S1024x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S1024x2048.size a
  hwx0_8 : ∀ i : grid0.Coords, EltTy.bits .f32 = 32 ∨ (Rect.block (s := S1024x2048) S1024x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S1024x2048.size a
  hwx0_9 : ∀ i : grid0.Coords, EltTy.bits .f32 = 32 ∨ (Rect.block (s := S1024x2048) S1024x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x2048.size a
  hwx0_10 : ∀ i : grid0.Coords, EltTy.bits .f32 = 32 ∨ (Rect.block (s := S1x2048) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x2048.size a
  hwx0_11 : ∀ i : grid0.Coords, EltTy.bits .f32 = 32 ∨ (Rect.block (s := S1x2048) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x128.size a ≤ S1024x2048.size a
  hwx0_12 : ∀ i : grid0.Coords, EltTy.bits .f32 = 32 ∨ (Rect.block (s := S1024x2048) S1024x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x128.size a ≤ S1024x2048.size a
  hwx0_13 : ∀ i : grid0.Coords, EltTy.bits .f32 = 32 ∨ (Rect.block (s := S1024x2048) S1024x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x2048.size a
  hwx0_14 : ∀ i : grid0.Coords, EltTy.bits .f32 = 32 ∨ (Rect.block (s := S1x2048) S1x128.size (cc0_transform_14 i) (hinb0_14 i)).WholeWords (EltTy.packing .f32)

variable [Facts₀]

def dot_S4096x3072_S3072x128_S4096x128_1_0_0_1_n_n : DotDims S4096x3072 S3072x128 S4096x128 where
  lhsContracting := [1]
  rhsContracting := [0]
  lhsNonContracting := [0]
  rhsNonContracting := [1]
  lhsBatch := []
  rhsBatch := []
  wf := dot_S4096x3072_S3072x128_S4096x128_1_0_0_1_n_n_wf
def dot_S1x1024_S1024x128_S1x128_1_0_0_1_n_n : DotDims S1x1024 S1024x128 S1x128 where
  lhsContracting := [1]
  rhsContracting := [0]
  lhsNonContracting := [0]
  rhsNonContracting := [1]
  lhsBatch := []
  rhsBatch := []
  wf := dot_S1x1024_S1024x128_S1x128_1_0_0_1_n_n_wf

abbrev win0_0 : Pipeline.Window sig grid0 :=
  Pipeline.Window.ofSpec (Memref.whole main_v11) S4096x3072.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4096x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S1024x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg2) S1024x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg3) S1024x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg0) S1024x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg4) S1x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg5) S1x128.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v12_0) S1024x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v12_1) S1024x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v12_2) S1x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S1024x2048 : Shape := ⟨2, ![1024, 2048]⟩
abbrev S1x2048 : Shape := ⟨2, ![1, 2048]⟩
abbrev S4097x1024 : Shape := ⟨2, ![4097, 1024]⟩
abbrev S4097 : Shape := ⟨1, ![4097]⟩
abbrev S4097x2048 : Shape := ⟨2, ![4097, 2048]⟩
abbrev S4097x1 : Shape := ⟨2, ![4097, 1]⟩
abbrev S_ : Shape := ⟨0, ![]⟩

abbrev nBuf : Space → Nat
  | .hbm => 120
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1x2048, .f32⟩
  | .hbm, ⟨5, _⟩ => ⟨S1x2048, .f32⟩
  | .hbm, ⟨6, _⟩ => ⟨S4097x1024, .f32⟩
  | .hbm, ⟨7, _⟩ => ⟨S4097x1024, .f32⟩
  | .hbm, ⟨8, _⟩ => ⟨S4097x1024, .f32⟩
  | .hbm, ⟨9, _⟩ => ⟨S4097, .f32⟩
  | .hbm, ⟨10, _⟩ => ⟨S4097x2048, .f32⟩
  | .hbm, ⟨11, _⟩ => ⟨S4097x2048, .f32⟩
  | .hbm, ⟨12, _⟩ => ⟨S4097x2048, .f32⟩
  | .hbm, ⟨13, _⟩ => ⟨S4097x2048, .f32⟩
  | .hbm, ⟨14, _⟩ => ⟨S4097x2048, .f32⟩
  | .hbm, ⟨15, _⟩ => ⟨S4097x2048, .f32⟩
  | .hbm, ⟨16, _⟩ => ⟨S4097x2048, .f32⟩
  | .hbm, ⟨17, _⟩ => ⟨S4097x2048, .f32⟩
  | .hbm, ⟨18, _⟩ => ⟨S4097x2048, .f32⟩
  | .hbm, ⟨19, _⟩ => ⟨S4097x1, .f32⟩
  | .hbm, ⟨20, _⟩ => ⟨S4097x2048, .f32⟩
  | .hbm, ⟨21, _⟩ => ⟨S4097x2048, .f32⟩
  | .hbm, ⟨22, _⟩ => ⟨S1024x2048, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S1x2048, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S_, .f32⟩
  | .hbm, ⟨33, _⟩ => ⟨S1024x2048, .f32⟩
  | .hbm, ⟨34, _⟩ => ⟨S1024x2048, .f32⟩
  | .hbm, ⟨35, _⟩ => ⟨S1024x2048, .f32⟩
  | .hbm, ⟨36, _⟩ => ⟨S1024x2048, .f32⟩
  | .hbm, ⟨37, _⟩ => ⟨S_, .f32⟩
  | .hbm, ⟨38, _⟩ => ⟨S1024x2048, .f32⟩
  | .hbm, ⟨39, _⟩ => ⟨S1024x2048, .f32⟩
  | .hbm, ⟨40, _⟩ => ⟨S_, .f32⟩
  | .hbm, ⟨41, _⟩ => ⟨S1024x2048, .f32⟩
  | .hbm, ⟨42, _⟩ => ⟨S1024x2048, .f32⟩
  | .hbm, ⟨43, _⟩ => ⟨S1024x2048, .f32⟩
  | .hbm, ⟨44, _⟩ => ⟨S1024x2048, .f32⟩
  | .hbm, ⟨45, _⟩ => ⟨S_, .f32⟩
  | .hbm, ⟨46, _⟩ => ⟨S1024x2048, .f32⟩
  | .hbm, ⟨47, _⟩ => ⟨S1024x2048, .f32⟩
  | .hbm, ⟨48, _⟩ => ⟨S_, .f32⟩
  | .hbm, ⟨49, _⟩ => ⟨S1024x2048, .f32⟩
  | .hbm, ⟨50, _⟩ => ⟨S1024x2048, .f32⟩
  | .hbm, ⟨51, _⟩ => ⟨S1024x2048, .f32⟩
  | .hbm, ⟨52, _⟩ => ⟨S_, .f32⟩
  | .hbm, ⟨53, _⟩ => ⟨S1x2048, .f32⟩
  | .hbm, ⟨54, _⟩ => ⟨S1x2048, .f32⟩
  | .hbm, ⟨55, _⟩ => ⟨S_, .f32⟩
  | .hbm, ⟨56, _⟩ => ⟨S1x2048, .f32⟩
  | .hbm, ⟨57, _⟩ => ⟨S1x2048, .f32⟩
  | .hbm, ⟨58, _⟩ => ⟨S_, .f32⟩
  | .hbm, ⟨59, _⟩ => ⟨S1x2048, .f32⟩
  | .hbm, ⟨60, _⟩ => ⟨S1x2048, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S1x2048, .f32⟩
  | .hbm, ⟨65, _⟩ => ⟨S1x2048, .f32⟩
  | .hbm, ⟨66, _⟩ => ⟨S_, .f32⟩
  | .hbm, ⟨67, _⟩ => ⟨S1x2048, .f32⟩
  | .hbm, ⟨68, _⟩ => ⟨S1x2048, .f32⟩
  | .hbm, ⟨69, _⟩ => ⟨S1024x2048, .f32⟩
  | .hbm, ⟨70, _⟩ => ⟨S1024x2048, .f32⟩
  | .hbm, ⟨71, _⟩ => ⟨S1024x2048, .f32⟩
  | .hbm, ⟨72, _⟩ => ⟨S_, .f32⟩
  | .hbm, ⟨73, _⟩ => ⟨S1x2048, .f32⟩
  | .hbm, ⟨74, _⟩ => ⟨S1x2048, .f32⟩
  | .hbm, ⟨75, _⟩ => ⟨S_, .f32⟩
  | .hbm, ⟨76, _⟩ => ⟨S1x2048, .f32⟩
  | .hbm, ⟨77, _⟩ => ⟨S1x2048, .f32⟩
  | .hbm, ⟨78, _⟩ => ⟨S1x2048, .f32⟩
  | .hbm, ⟨79, _⟩ => ⟨S1024x2048, .f32⟩
  | .hbm, ⟨80, _⟩ => ⟨S1024x2048, .f32⟩
  | .hbm, ⟨81, _⟩ => ⟨S1024x2048, .f32⟩
  | .hbm, ⟨82, _⟩ => ⟨S_, .f32⟩
  | .hbm, ⟨83, _⟩ => ⟨S1x2048, .f32⟩
  | .hbm, ⟨84, _⟩ => ⟨S1x2048, .f32⟩
  | .hbm, ⟨85, _⟩ => ⟨S1x2048, .f32⟩
  | .hbm, ⟨86, _⟩ => ⟨S1024x2048, .f32⟩
  | .hbm, ⟨87, _⟩ => ⟨S1024x2048, .f32⟩
  | .hbm, ⟨88, _⟩ => ⟨S1024x2048, .f32⟩
  | .hbm, ⟨89, _⟩ => ⟨S1024x2048, .f32⟩
  | .hbm, ⟨90, _⟩ => ⟨S1024x2048, .f32⟩
  | .hbm, ⟨91, _⟩ => ⟨S1024x2048, .f32⟩
  | .hbm, ⟨92, _⟩ => ⟨S1024x2048, .f32⟩
  | .hbm, ⟨93, _⟩ => ⟨S1024x2048, .f32⟩
  | .hbm, ⟨94, _⟩ => ⟨S1024x2048, .f32⟩
  | .hbm, ⟨95, _⟩ => ⟨S1024x2048, .f32⟩
  | .hbm, ⟨96, _⟩ => ⟨S_, .f32⟩
  | .hbm, ⟨97, _⟩ => ⟨S1x2048, .f32⟩
  | .hbm, ⟨98, _⟩ => ⟨S1x2048, .f32⟩
  | .hbm, ⟨99, _⟩ => ⟨S_, .f32⟩
  | .hbm, ⟨100, _⟩ => ⟨S1x2048, .f32⟩
  | .hbm, ⟨101, _⟩ => ⟨S1x2048, .f32⟩
  | .hbm, ⟨102, _⟩ => ⟨S1x2048, .f32⟩
  | .hbm, ⟨103, _⟩ => ⟨S1024x2048, .f32⟩
  | .hbm, ⟨104, _⟩ => ⟨S1024x2048, .f32⟩
  | .hbm, ⟨105, _⟩ => ⟨S1024x2048, .f32⟩
  | .hbm, ⟨106, _⟩ => ⟨S_, .f32⟩
  | .hbm, ⟨107, _⟩ => ⟨S1x2048, .f32⟩
  | .hbm, ⟨108, _⟩ => ⟨S1x2048, .f32⟩
  | .hbm, ⟨109, _⟩ => ⟨S1x2048, .f32⟩
  | .hbm, ⟨110, _⟩ => ⟨S1024x2048, .f32⟩
  | .hbm, ⟨111, _⟩ => ⟨S1024x2048, .f32⟩
  | .hbm, ⟨112, _⟩ => ⟨S1024x2048, .f32⟩
  | .hbm, ⟨113, _⟩ => ⟨S1024x2048, .f32⟩
  | .hbm, ⟨114, _⟩ => ⟨S_, .f32⟩
  | .hbm, ⟨115, _⟩ => ⟨S1x2048, .f32⟩
  | .hbm, ⟨116, _⟩ => ⟨S1x2048, .i1⟩
  | .hbm, ⟨117, _⟩ => ⟨S1x2048, .f32⟩
  | .hbm, ⟨118, _⟩ => ⟨S1x2048, .f32⟩
  | .hbm, ⟨119, _⟩ => ⟨S1x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_cst_9 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_cst_11 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_12 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_16 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  bcast_S1x2048_S4097x2048_0_1 : S1x2048.BroadcastsInDim S4097x2048 (![0, 1] : Fin 2 → Fin S4097x2048.rank)
  bcast_S4097_S4097x1_0 : S4097.BroadcastsInDim S4097x1 (![0] : Fin 1 → Fin S4097x1.rank)
  bcast_S4097x1_S4097x2048_0_1 : S4097x1.BroadcastsInDim S4097x2048 (![0, 1] : Fin 2 → Fin S4097x2048.rank)
  slices_S4097x2048_S1024x2048_0_0 : S4097x2048.Slices ![0, 0] S1024x2048
  slices_S4097x2048_S1024x2048_1024_0 : S4097x2048.Slices ![1024, 0] S1024x2048
  slices_S4097x2048_S1024x2048_2048_0 : S4097x2048.Slices ![2048, 0] S1024x2048
  slices_S4097x2048_S1024x2048_3072_0 : S4097x2048.Slices ![3072, 0] S1024x2048
  slices_S4097x2048_S1x2048_4096_0 : S4097x2048.Slices ![4096, 0] S1x2048
  bcast_S_S1024x2048 : S_.BroadcastsInDim S1024x2048 (![] : Fin 0 → Fin S1024x2048.rank)
  bcast_S_S1x2048 : S_.BroadcastsInDim S1x2048 (![] : Fin 0 → Fin S1x2048.rank)
  bcast_S1x2048_S1024x2048_0_1 : S1x2048.BroadcastsInDim S1024x2048 (![0, 1] : Fin 2 → Fin S1024x2048.rank)
  dot_S4097x1024_S1024x2048_S4097x2048_1_0_0_1_n_n_wf : DotDims.WF S4097x1024 S1024x2048 S4097x2048 [1] [0] [0] [1] [] []

variable [Facts₀]

def dot_S4097x1024_S1024x2048_S4097x2048_1_0_0_1_n_n : DotDims S4097x1024 S1024x2048 S4097x2048 where
  lhsContracting := [1]
  rhsContracting := [0]
  lhsNonContracting := [0]
  rhsNonContracting := [1]
  lhsBatch := []
  rhsBatch := []
  wf := dot_S4097x1024_S1024x2048_S4097x2048_1_0_0_1_n_n_wf

class Facts : Prop extends Facts₀ where

variable [Facts]
-- ==== Proof.FrameBits.lean ====
/-
  Kernel's @main, the host lines and the one launch: twelve host lines cut the gate weights from the three weight
  matrices (the 4096 gate rows of each, side by side, as one 4096 × 3072 matrix; row 4096 of each apart, as the
  boundary row; the bias likewise), then ONE launch over sixteen column tiles of 128.  At a tile the body reads
  its twelve input blocks whole, and stores three blocks whole: the new hidden state, the new cell state and the
  new boundary indicator.  So what each output block holds after the body is a function of the twelve input
  blocks alone (`hiddenOut`, `cellOut`, `boundaryOut`), every input buffer is left as found, and the
  pipeline's run is the library's frame run: every execution terminates, nothing faults, each output array
  ends at the blocks written back and every other array as the region found it.  Stated at any float instance.
-/
import proofs.«120162_j41540923687172_2_alg».proof.Proof.Gen.Kernel.Launch
import proofs.«120162_j41540923687172_2_alg».proof.Proof.Gen.Kernel.Skeleton
import proofs.«120162_j41540923687172_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core `c`'s buffers when the launch is reached: the launch contents after the twelve host lines. -/
abbrev atEntry (c : Dev nD) (b : Ref sig .tc) : Buf (Elt F) ((c : Thread nD τ).loc b) :=
  StableHlo.after hostOps0 (fun b => m (c, b)) b

/-- Every host line writes an existing buffer: none allocates. -/
theorem hostOps_fresh : (hostOps0 : List (HloOp τ sig (Elt F))).Forall fun op => op.fresh = ∅ := by
  simp only [List.Forall]; repeat' constructor

/-- @main is the host lines, then the launch. -/
theorem main_to_launch (𝒱₀ : Variants) : Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps_fresh main_chain

/-- No host line before the region writes argument 0: the region finds it as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 1: the region finds it as launched. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 2: the region finds it as launched. -/
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 3: the region finds it as launched. -/
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 4: the region finds it as launched. -/
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 5: the region finds it as launched. -/
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 6: the region finds it as launched. -/
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 7: the region finds it as launched. -/
theorem atEntry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 8: the region finds it as launched. -/
theorem atEntry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 9: the region finds it as launched. -/
theorem atEntry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))

/-! ## A window's block at a tile -/

/-- Window `w`'s block at tile `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! Each input window's current buffer holds its block at every tile — fetched there, or (the six resident
    windows after the first tile) kept from the fetch at tile 0, the block index not having moved — for any proof
    data over the entry arrays whose body leaves the inputs in place. -/
theorem held_0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held_3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held_4 {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held_5 {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem held_6 {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem held_7 {c : Dev nD} (dat : Dat τ (Elt F) Unit ℕ (UR sig nD τ) ℕ cfg0 c) (hA : dat.A 7 = atEntry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
theorem held_8 {c : Dev nD} (dat : Dat τ (Elt F) Unit ℕ (UR sig nD τ) ℕ cfg0 c) (hA : dat.A 8 = atEntry m c (Pipeline.arrRef spec0 8))
    (hafter : ∀ t, dat.after 8 t = blockAt m c 8 t) (t : Fin cfg0.N) (d) : dat.before 8 t d = blockAt m c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)
theorem held_9 {c : Dev nD} (dat : Dat τ (Elt F) Unit ℕ (UR sig nD τ) ℕ cfg0 c) (hA : dat.A 9 = atEntry m c (Pipeline.arrRef spec0 9))
    (hafter : ∀ t, dat.after 9 t = blockAt m c 9 t) (t : Fin cfg0.N) (d) : dat.before 9 t d = blockAt m c 9 t :=
  (dat.before_in_eq_fetched 9 rfl (fun _ => rfl) (fun _ _ _ => rfl) (fun t => by rw [hafter]; unfold Dat.blockOf blockAt; rw [hA]; try rfl) t d).trans
    (by unfold Dat.fetched Dat.blockOf blockAt; rw [hA]; try rfl)
theorem held_10 {c : Dev nD} (dat : Dat τ (Elt F) Unit ℕ (UR sig nD τ) ℕ cfg0 c) (hA : dat.A 10 = atEntry m c (Pipeline.arrRef spec0 10))
    (hafter : ∀ t, dat.after 10 t = blockAt m c 10 t) (t : Fin cfg0.N) (d) : dat.before 10 t d = blockAt m c 10 t :=
  (dat.before_in_eq_fetched 10 rfl (fun _ => rfl) (fun _ _ _ => rfl) (fun t => by rw [hafter]; unfold Dat.blockOf blockAt; rw [hA]; try rfl) t d).trans
    (by unfold Dat.fetched Dat.blockOf blockAt; rw [hA]; try rfl)
theorem held_11 {c : Dev nD} (dat : Dat τ (Elt F) Unit ℕ (UR sig nD τ) ℕ cfg0 c) (hA : dat.A 11 = atEntry m c (Pipeline.arrRef spec0 11))
    (hafter : ∀ t, dat.after 11 t = blockAt m c 11 t) (t : Fin cfg0.N) (d) : dat.before 11 t d = blockAt m c 11 t :=
  (dat.before_in_eq_fetched 11 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from the frame run's -/

/-- The ten argument arrays end as launched: six are input windows' arrays (an input's array is never written
    back), four are staged by no window (the frame run leaves them as the launch found them), and the host lines
    before the launch write none of the ten. -/
theorem frame_of (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 9).trans (((dats 0 c).arrAt_in 9 rfl _).trans ((hA c 9).trans (atEntry_arg0 m c))),
      ((h c).1 6).trans (((dats 0 c).arrAt_in 6 rfl _).trans ((hA c 6).trans (atEntry_arg1 m c))),
      ((h c).1 7).trans (((dats 0 c).arrAt_in 7 rfl _).trans ((hA c 7).trans (atEntry_arg2 m c))),
      ((h c).1 8).trans (((dats 0 c).arrAt_in 8 rfl _).trans ((hA c 8).trans (atEntry_arg3 m c))),
      ((h c).1 10).trans (((dats 0 c).arrAt_in 10 rfl _).trans ((hA c 10).trans (atEntry_arg4 m c))),
      ((h c).1 11).trans (((dats 0 c).arrAt_in 11 rfl _).trans ((hA c 11).trans (atEntry_arg5 m c))),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c),
      ((h c).2 main_arg8 (Pipeline.mem_restRefs_of main_arg8 (by decide) (by decide))).trans (atEntry_arg8 m c),
      ((h c).2 main_arg9 (Pipeline.mem_restRefs_of main_arg9 (by decide) (by decide))).trans (atEntry_arg9 m c)⟩) h

/-! ## What the body reads and what it leaves -/

abbrev whole_1024x128 : Rect S1024x128 := Rect.unit (s := S1024x128) ![0, 0] S1024x128.size inb_S1024x128_S1024x128_0_0
abbrev whole_1x128 : Rect S1x128 := Rect.unit (s := S1x128) ![0, 0] S1x128.size inb_S1x128_S1x128_0_0
abbrev whole_4096x3072 : Rect S4096x3072 := Rect.unit (s := S4096x3072) ![0, 0] S4096x3072.size inb_S4096x3072_S4096x3072_0_0
abbrev whole_4096x1 : Rect S4096x1 := Rect.unit (s := S4096x1) ![0, 0] S4096x1.size inb_S4096x1_S4096x1_0_0
abbrev whole_1x1024 : Rect S1x1024 := Rect.unit (s := S1x1024) ![0, 0] S1x1024.size inb_S1x1024_S1x1024_0_0
abbrev whole_1x1 : Rect S1x1 := Rect.unit (s := S1x1) ![0, 0] S1x1.size inb_S1x1_S1x1_0_0

section Outputs

/-- The forget, input and output gates and the candidate cell, from the fused product of the 4096 × 3072 weights
    with the stacked operand (lower state; own state and upper state each scaled by the boundary indicator) plus the bias. -/
def forgetGate (x0 : Vec F S4096x3072 .bf16) (x1 : Vec F S4096x1 .f32) (x2 : Vec F S1x1024 .f32) (x3 : Vec F S1x1024 .f32) (x4 : Vec F S1x1024 .f32) (x5 : Vec F S1x1 .f32) (x6 : Vec F S1024x128 .f32) (x7 : Vec F S1024x128 .f32) (x8 : Vec F S1024x128 .f32) (x9 : Vec F S1024x128 .f32) (x10 : Vec F S1x128 .f32) (x11 : Vec F S1x128 .f32) : FVec F S1024x128 .f32 := k0_pay3 (View.ld x6 whole_1024x128) (View.ld x8 whole_1024x128) (View.ld x7 whole_1024x128) (View.ld x10 whole_1x128) (View.ld x0 whole_4096x3072) (View.ld x1 whole_4096x1)
def inputGate (x0 : Vec F S4096x3072 .bf16) (x1 : Vec F S4096x1 .f32) (x2 : Vec F S1x1024 .f32) (x3 : Vec F S1x1024 .f32) (x4 : Vec F S1x1024 .f32) (x5 : Vec F S1x1 .f32) (x6 : Vec F S1024x128 .f32) (x7 : Vec F S1024x128 .f32) (x8 : Vec F S1024x128 .f32) (x9 : Vec F S1024x128 .f32) (x10 : Vec F S1x128 .f32) (x11 : Vec F S1x128 .f32) : FVec F S1024x128 .f32 := k0_pay4 (View.ld x6 whole_1024x128) (View.ld x8 whole_1024x128) (View.ld x7 whole_1024x128) (View.ld x10 whole_1x128) (View.ld x0 whole_4096x3072) (View.ld x1 whole_4096x1)
def outputGate (x0 : Vec F S4096x3072 .bf16) (x1 : Vec F S4096x1 .f32) (x2 : Vec F S1x1024 .f32) (x3 : Vec F S1x1024 .f32) (x4 : Vec F S1x1024 .f32) (x5 : Vec F S1x1 .f32) (x6 : Vec F S1024x128 .f32) (x7 : Vec F S1024x128 .f32) (x8 : Vec F S1024x128 .f32) (x9 : Vec F S1024x128 .f32) (x10 : Vec F S1x128 .f32) (x11 : Vec F S1x128 .f32) : FVec F S1024x128 .f32 := k0_pay5 (View.ld x6 whole_1024x128) (View.ld x8 whole_1024x128) (View.ld x7 whole_1024x128) (View.ld x10 whole_1x128) (View.ld x0 whole_4096x3072) (View.ld x1 whole_4096x1)
def candidate (x0 : Vec F S4096x3072 .bf16) (x1 : Vec F S4096x1 .f32) (x2 : Vec F S1x1024 .f32) (x3 : Vec F S1x1024 .f32) (x4 : Vec F S1x1024 .f32) (x5 : Vec F S1x1 .f32) (x6 : Vec F S1024x128 .f32) (x7 : Vec F S1024x128 .f32) (x8 : Vec F S1024x128 .f32) (x9 : Vec F S1024x128 .f32) (x10 : Vec F S1x128 .f32) (x11 : Vec F S1x128 .f32) : FVec F S1024x128 .f32 := k0_pay6 (View.ld x6 whole_1024x128) (View.ld x8 whole_1024x128) (View.ld x7 whole_1024x128) (View.ld x10 whole_1x128) (View.ld x0 whole_4096x3072) (View.ld x1 whole_4096x1)

/-- The new cell state, before it is stored. -/
def cellValue (x0 : Vec F S4096x3072 .bf16) (x1 : Vec F S4096x1 .f32) (x2 : Vec F S1x1024 .f32) (x3 : Vec F S1x1024 .f32) (x4 : Vec F S1x1024 .f32) (x5 : Vec F S1x1 .f32) (x6 : Vec F S1024x128 .f32) (x7 : Vec F S1024x128 .f32) (x8 : Vec F S1024x128 .f32) (x9 : Vec F S1024x128 .f32) (x10 : Vec F S1x128 .f32) (x11 : Vec F S1x128 .f32) : FVec F S1024x128 .f32 :=
  k0_pay14 (View.ld x9 whole_1024x128) (View.ld x10 whole_1x128) (View.ld x11 whole_1x128) (forgetGate x0 x1 x2 x3 x4 x5 x6 x7 x8 x9 x10 x11) (inputGate x0 x1 x2 x3 x4 x5 x6 x7 x8 x9 x10 x11) (candidate x0 x1 x2 x3 x4 x5 x6 x7 x8 x9 x10 x11)

/-- The new boundary indicator, before it is stored: the three row products, combined and thresholded. -/
def boundaryValue (x0 : Vec F S4096x3072 .bf16) (x1 : Vec F S4096x1 .f32) (x2 : Vec F S1x1024 .f32) (x3 : Vec F S1x1024 .f32) (x4 : Vec F S1x1024 .f32) (x5 : Vec F S1x1 .f32) (x6 : Vec F S1024x128 .f32) (x7 : Vec F S1024x128 .f32) (x8 : Vec F S1024x128 .f32) (x9 : Vec F S1024x128 .f32) (x10 : Vec F S1x128 .f32) (x11 : Vec F S1x128 .f32) : FVec F S1x128 .f32 :=
  k0_pay9 (View.ld x8 whole_1024x128) (View.ld x7 whole_1024x128) (View.ld x10 whole_1x128) (k0_pay7 (View.ld x6 whole_1024x128) (View.ld x2 whole_1x1024)) (k0_pay8 (View.ld x4 whole_1x1024))
    (constant S1x128 .f32 0x00000000#32) (View.ld x3 whole_1x1024) (View.ld x5 whole_1x1)

/-- The new hidden state, before it is stored. -/
def hiddenValue (x0 : Vec F S4096x3072 .bf16) (x1 : Vec F S4096x1 .f32) (x2 : Vec F S1x1024 .f32) (x3 : Vec F S1x1024 .f32) (x4 : Vec F S1x1024 .f32) (x5 : Vec F S1x1 .f32) (x6 : Vec F S1024x128 .f32) (x7 : Vec F S1024x128 .f32) (x8 : Vec F S1024x128 .f32) (x9 : Vec F S1024x128 .f32) (x10 : Vec F S1x128 .f32) (x11 : Vec F S1x128 .f32) : FVec F S1024x128 .f32 :=
  k0_pay1 (outputGate x0 x1 x2 x3 x4 x5 x6 x7 x8 x9 x10 x11) (k0_pay11 (View.ld x11 whole_1x128)) (k0_pay12 (View.ld x10 whole_1x128))
    (k0_pay15 (View.ld x9 whole_1024x128) (View.ld x10 whole_1x128) (View.ld x11 whole_1x128) (forgetGate x0 x1 x2 x3 x4 x5 x6 x7 x8 x9 x10 x11) (inputGate x0 x1 x2 x3 x4 x5 x6 x7 x8 x9 x10 x11) (candidate x0 x1 x2 x3 x4 x5 x6 x7 x8 x9 x10 x11))
    (k0_pay16 (View.ld x7 whole_1024x128) (View.ld x9 whole_1024x128) (View.ld x10 whole_1x128) (View.ld x11 whole_1x128) (forgetGate x0 x1 x2 x3 x4 x5 x6 x7 x8 x9 x10 x11) (inputGate x0 x1 x2 x3 x4 x5 x6 x7 x8 x9 x10 x11) (outputGate x0 x1 x2 x3 x4 x5 x6 x7 x8 x9 x10 x11) (candidate x0 x1 x2 x3 x4 x5 x6 x7 x8 x9 x10 x11))

/-- Each output buffer after the body: its one store, through the whole-block rectangle. -/
def hiddenOut (x0 : Vec F S4096x3072 .bf16) (x1 : Vec F S4096x1 .f32) (x2 : Vec F S1x1024 .f32) (x3 : Vec F S1x1024 .f32) (x4 : Vec F S1x1024 .f32) (x5 : Vec F S1x1 .f32) (x6 : Vec F S1024x128 .f32) (x7 : Vec F S1024x128 .f32) (x8 : Vec F S1024x128 .f32) (x9 : Vec F S1024x128 .f32) (x10 : Vec F S1x128 .f32) (x11 : Vec F S1x128 .f32) : Vec F S1024x128 .f32 := View.canon [⟨whole_1024x128, hiddenValue x0 x1 x2 x3 x4 x5 x6 x7 x8 x9 x10 x11⟩]
def cellOut (x0 : Vec F S4096x3072 .bf16) (x1 : Vec F S4096x1 .f32) (x2 : Vec F S1x1024 .f32) (x3 : Vec F S1x1024 .f32) (x4 : Vec F S1x1024 .f32) (x5 : Vec F S1x1 .f32) (x6 : Vec F S1024x128 .f32) (x7 : Vec F S1024x128 .f32) (x8 : Vec F S1024x128 .f32) (x9 : Vec F S1024x128 .f32) (x10 : Vec F S1x128 .f32) (x11 : Vec F S1x128 .f32) : Vec F S1024x128 .f32 := View.canon [⟨whole_1024x128, cellValue x0 x1 x2 x3 x4 x5 x6 x7 x8 x9 x10 x11⟩]
def boundaryOut (x0 : Vec F S4096x3072 .bf16) (x1 : Vec F S4096x1 .f32) (x2 : Vec F S1x1024 .f32) (x3 : Vec F S1x1024 .f32) (x4 : Vec F S1x1024 .f32) (x5 : Vec F S1x1 .f32) (x6 : Vec F S1024x128 .f32) (x7 : Vec F S1024x128 .f32) (x8 : Vec F S1024x128 .f32) (x9 : Vec F S1024x128 .f32) (x10 : Vec F S1x128 .f32) (x11 : Vec F S1x128 .f32) : Vec F S1x128 .f32 := View.canon [⟨whole_1x128, boundaryValue x0 x1 x2 x3 x4 x5 x6 x7 x8 x9 x10 x11⟩]

end Outputs

/-- A whole-block store covers its block. -/
theorem cover_1024x128 (p0 : Vec F S1024x128 .f32) (y : S1024x128.Idx) :
    ∃ pc ∈ ([⟨whole_1024x128, p0⟩] : List (View.Piece (Elt F) S1024x128 .f32)), y ∈ pc.1.set :=
  View.cover_of_tiled [⟨whole_1024x128, p0⟩] S1024x128.size (by rfl) y
theorem cover_1x128 (p0 : Vec F S1x128 .f32) (y : S1x128.Idx) :
    ∃ pc ∈ ([⟨whole_1x128, p0⟩] : List (View.Piece (Elt F) S1x128 .f32)), y ∈ pc.1.set :=
  View.cover_of_tiled [⟨whole_1x128, p0⟩] S1x128.size (by rfl) y

/-! ## The body's triple -/

set_option maxHeartbeats 4000000 in
/-- On whole buffers, the inputs' at contents `x0 … x11` and the outputs' at anything, the body runs to its
    continuation with the inputs' as they were and the outputs' at `hiddenOut`, `cellOut`, `boundaryOut`. -/
theorem body_triple (c : Dev nD) (E : Set ℕ) (i : grid0.Coords) (arg1 : Memref sig .tc .vmem S4096x3072 .bf16) (harg1 : arg1.IsWhole) (arg2 : Memref sig .tc .vmem S4096x1 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1x128 .f32) (harg15 : arg15.IsWhole)
    (x0 : Vec F S4096x3072 .bf16) (x1 : Vec F S4096x1 .f32) (x2 : Vec F S1x1024 .f32) (x3 : Vec F S1x1024 .f32) (x4 : Vec F S1x1024 .f32) (x5 : Vec F S1x1 .f32) (x6 : Vec F S1024x128 .f32) (x7 : Vec F S1024x128 .f32) (x8 : Vec F S1024x128 .f32) (x9 : Vec F S1024x128 .f32) (x10 : Vec F S1x128 .f32) (x11 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (hiddenOut x0 x1 x2 x3 x4 x5 x6 x7 x8 x9 x10 x11) ∗ owns (c : Thread nD τ) arg14 fullShare (cellOut x0 x1 x2 x3 x4 x5 x6 x7 x8 x9 x10 x11) ∗ owns (c : Thread nD τ) arg15 fullShare (boundaryOut x0 x1 x2 x3 x4 x5 x6 x7 x8 x9 x10 x11)) -∗ K ⟨⟩))
      ⊢ wp frame (wpE (defs₀ (F := F)) Variants.none c none) E (cc0__hmlstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__hmlstm_kernel_eq_skeleton]; unfold cc0__hmlstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover_1024x128 _)
  isplitl [H13]
  · iexists _; isplitr
    swap; · iexact H13
    ipureintro
    exact View.read_writes_eq_canon _ _ _ (cover_1024x128 _)
  iexists _; isplitr
  swap; · iexact H14
  ipureintro
  exact View.read_writes_eq_canon _ _ _ (cover_1x128 _)

/-! ## The pipeline's proof data -/

/-- On core `c`: the arrays as the launch finds them; after the body at tile `t` each input buffer at its block
    and each output buffer at the body's function of the twelve input blocks; the invariant the untouched rest
    (no scratch, the generator register); nothing owed; full shares. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => blockAt m c 10 t
    | ⟨11, _⟩ => blockAt m c 11 t
    | ⟨12, _⟩ => hiddenOut (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t)
    | ⟨13, _⟩ => cellOut (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t)
    | ⟨14, _⟩ => boundaryOut (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t)
  Φ _ := Pipeline.ΦA spec0 c
  q _ := fullShare
  owed _ := 0

theorem A_eq (c : Dev nD) (w : Fin cfg0.W) : (dats m 0 c).A w = atEntry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t = blockAt m c 7 t := by dsimp only [dats]
theorem after_8 (c : Dev nD) (t : Fin cfg0.N) : (dats m 0 c).after 8 t = blockAt m c 8 t := by dsimp only [dats]
theorem after_9 (c : Dev nD) (t : Fin cfg0.N) : (dats m 0 c).after 9 t = blockAt m c 9 t := by dsimp only [dats]
theorem after_10 (c : Dev nD) (t : Fin cfg0.N) : (dats m 0 c).after 10 t = blockAt m c 10 t := by dsimp only [dats]
theorem after_11 (c : Dev nD) (t : Fin cfg0.N) : (dats m 0 c).after 11 t = blockAt m c 11 t := by dsimp only [dats]
theorem after_12 (c : Dev nD) (t : Fin cfg0.N) : (dats m 0 c).after 12 t = hiddenOut (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) := by dsimp only [dats]
theorem after_13 (c : Dev nD) (t : Fin cfg0.N) : (dats m 0 c).after 13 t = cellOut (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) := by dsimp only [dats]
theorem after_14 (c : Dev nD) (t : Fin cfg0.N) : (dats m 0 c).after 14 t = boundaryOut (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) := by dsimp only [dats]

theorem before_0 (c : Dev nD) (t : Fin cfg0.N) (d) : (dats m 0 c).before 0 t d = blockAt m c 0 t :=
  held_0 m (dats m 0 c) (A_eq m c 0) (after_0 m c) t d
theorem before_1 (c : Dev nD) (t : Fin cfg0.N) (d) : (dats m 0 c).before 1 t d = blockAt m c 1 t :=
  held_1 m (dats m 0 c) (A_eq m c 1) (after_1 m c) t d
theorem before_2 (c : Dev nD) (t : Fin cfg0.N) (d) : (dats m 0 c).before 2 t d = blockAt m c 2 t :=
  held_2 m (dats m 0 c) (A_eq m c 2) (after_2 m c) t d
theorem before_3 (c : Dev nD) (t : Fin cfg0.N) (d) : (dats m 0 c).before 3 t d = blockAt m c 3 t :=
  held_3 m (dats m 0 c) (A_eq m c 3) (after_3 m c) t d
theorem before_4 (c : Dev nD) (t : Fin cfg0.N) (d) : (dats m 0 c).before 4 t d = blockAt m c 4 t :=
  held_4 m (dats m 0 c) (A_eq m c 4) (after_4 m c) t d
theorem before_5 (c : Dev nD) (t : Fin cfg0.N) (d) : (dats m 0 c).before 5 t d = blockAt m c 5 t :=
  held_5 m (dats m 0 c) (A_eq m c 5) (after_5 m c) t d
theorem before_6 (c : Dev nD) (t : Fin cfg0.N) (d) : (dats m 0 c).before 6 t d = blockAt m c 6 t :=
  held_6 m (dats m 0 c) (A_eq m c 6) (after_6 m c) t d
theorem before_7 (c : Dev nD) (t : Fin cfg0.N) (d) : (dats m 0 c).before 7 t d = blockAt m c 7 t :=
  held_7 m (dats m 0 c) (A_eq m c 7) (after_7 m c) t d
theorem before_8 (c : Dev nD) (t : Fin cfg0.N) (d) : (dats m 0 c).before 8 t d = blockAt m c 8 t :=
  held_8 m (dats m 0 c) (A_eq m c 8) (after_8 m c) t d
theorem before_9 (c : Dev nD) (t : Fin cfg0.N) (d) : (dats m 0 c).before 9 t d = blockAt m c 9 t :=
  held_9 m (dats m 0 c) (A_eq m c 9) (after_9 m c) t d
theorem before_10 (c : Dev nD) (t : Fin cfg0.N) (d) : (dats m 0 c).before 10 t d = blockAt m c 10 t :=
  held_10 m (dats m 0 c) (A_eq m c 10) (after_10 m c) t d
theorem before_11 (c : Dev nD) (t : Fin cfg0.N) (d) : (dats m 0 c).before 11 t d = blockAt m c 11 t :=
  held_11 m (dats m 0 c) (A_eq m c 11) (after_11 m c) t d

/-! ## The body obligation at a tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 1000000 in
/-- At any tile the input buffers hold their blocks, so the body's triple applies; the invariant and what is owed
    pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_triple c Set.univ _ _ _ _ _ _ _ _ _ _ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every tile. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- Every weakly fair execution of @main terminates, nothing faulting, each array of the pipeline ending at what
    the library computes from the proof data and every other unscoped buffer as the launch found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := main_to_launch m Variants.none) (hA := A_eq m) (hΦ := fun _ _ => rfl)

/-- The frame: @main runs to the end and its ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Frame

end
-- ==== Proof.FrameIdeal.lean ====
/-
  KernelIdeal's @main, the host lines and the one launch: twelve host lines cut the gate weights from the three weight
  matrices (the 4096 gate rows of each, side by side, as one 4096 × 3072 matrix; row 4096 of each apart, as the
  boundary row; the bias likewise), then ONE launch over sixteen column tiles of 128.  At a tile the body reads
  its twelve input blocks whole, and stores three blocks whole: the new hidden state, the new cell state and the
  new boundary indicator.  So what each output block holds after the body is a function of the twelve input
  blocks alone (`hiddenOut`, `cellOut`, `boundaryOut`), every input buffer is left as found, and the
  pipeline's run is the library's frame run: every execution terminates, nothing faults, each output array
  ends at the blocks written back and every other array as the region found it.  Stated at any float instance.
-/
import proofs.«120162_j41540923687172_2_alg».proof.Proof.Gen.KernelIdeal.Launch
import proofs.«120162_j41540923687172_2_alg».proof.Proof.Gen.KernelIdeal.Skeleton
import proofs.«120162_j41540923687172_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core `c`'s buffers when the launch is reached: the launch contents after the twelve host lines. -/
abbrev atEntry (c : Dev nD) (b : Ref sig .tc) : Buf (Elt F) ((c : Thread nD τ).loc b) :=
  StableHlo.after hostOps0 (fun b => m (c, b)) b

/-- Every host line writes an existing buffer: none allocates. -/
theorem hostOps_fresh : (hostOps0 : List (HloOp τ sig (Elt F))).Forall fun op => op.fresh = ∅ := by
  simp only [List.Forall]; repeat' constructor

/-- @main is the host lines, then the launch. -/
theorem main_to_launch (𝒱₀ : Variants) : Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps_fresh main_chain

/-- No host line before the region writes argument 0: the region finds it as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 1: the region finds it as launched. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 2: the region finds it as launched. -/
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 3: the region finds it as launched. -/
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 4: the region finds it as launched. -/
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 5: the region finds it as launched. -/
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 6: the region finds it as launched. -/
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 7: the region finds it as launched. -/
theorem atEntry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 8: the region finds it as launched. -/
theorem atEntry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 9: the region finds it as launched. -/
theorem atEntry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))

/-! ## A window's block at a tile -/

/-- Window `w`'s block at tile `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! Each input window's current buffer holds its block at every tile — fetched there, or (the six resident
    windows after the first tile) kept from the fetch at tile 0, the block index not having moved — for any proof
    data over the entry arrays whose body leaves the inputs in place. -/
theorem held_0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held_3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held_4 {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held_5 {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem held_6 {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem held_7 {c : Dev nD} (dat : Dat τ (Elt F) Unit ℕ (UR sig nD τ) ℕ cfg0 c) (hA : dat.A 7 = atEntry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
theorem held_8 {c : Dev nD} (dat : Dat τ (Elt F) Unit ℕ (UR sig nD τ) ℕ cfg0 c) (hA : dat.A 8 = atEntry m c (Pipeline.arrRef spec0 8))
    (hafter : ∀ t, dat.after 8 t = blockAt m c 8 t) (t : Fin cfg0.N) (d) : dat.before 8 t d = blockAt m c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)
theorem held_9 {c : Dev nD} (dat : Dat τ (Elt F) Unit ℕ (UR sig nD τ) ℕ cfg0 c) (hA : dat.A 9 = atEntry m c (Pipeline.arrRef spec0 9))
    (hafter : ∀ t, dat.after 9 t = blockAt m c 9 t) (t : Fin cfg0.N) (d) : dat.before 9 t d = blockAt m c 9 t :=
  (dat.before_in_eq_fetched 9 rfl (fun _ => rfl) (fun _ _ _ => rfl) (fun t => by rw [hafter]; unfold Dat.blockOf blockAt; rw [hA]; try rfl) t d).trans
    (by unfold Dat.fetched Dat.blockOf blockAt; rw [hA]; try rfl)
theorem held_10 {c : Dev nD} (dat : Dat τ (Elt F) Unit ℕ (UR sig nD τ) ℕ cfg0 c) (hA : dat.A 10 = atEntry m c (Pipeline.arrRef spec0 10))
    (hafter : ∀ t, dat.after 10 t = blockAt m c 10 t) (t : Fin cfg0.N) (d) : dat.before 10 t d = blockAt m c 10 t :=
  (dat.before_in_eq_fetched 10 rfl (fun _ => rfl) (fun _ _ _ => rfl) (fun t => by rw [hafter]; unfold Dat.blockOf blockAt; rw [hA]; try rfl) t d).trans
    (by unfold Dat.fetched Dat.blockOf blockAt; rw [hA]; try rfl)
theorem held_11 {c : Dev nD} (dat : Dat τ (Elt F) Unit ℕ (UR sig nD τ) ℕ cfg0 c) (hA : dat.A 11 = atEntry m c (Pipeline.arrRef spec0 11))
    (hafter : ∀ t, dat.after 11 t = blockAt m c 11 t) (t : Fin cfg0.N) (d) : dat.before 11 t d = blockAt m c 11 t :=
  (dat.before_in_eq_fetched 11 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from the frame run's -/

/-- The ten argument arrays end as launched: six are input windows' arrays (an input's array is never written
    back), four are staged by no window (the frame run leaves them as the launch found them), and the host lines
    before the launch write none of the ten. -/
theorem frame_of (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 9).trans (((dats 0 c).arrAt_in 9 rfl _).trans ((hA c 9).trans (atEntry_arg0 m c))),
      ((h c).1 6).trans (((dats 0 c).arrAt_in 6 rfl _).trans ((hA c 6).trans (atEntry_arg1 m c))),
      ((h c).1 7).trans (((dats 0 c).arrAt_in 7 rfl _).trans ((hA c 7).trans (atEntry_arg2 m c))),
      ((h c).1 8).trans (((dats 0 c).arrAt_in 8 rfl _).trans ((hA c 8).trans (atEntry_arg3 m c))),
      ((h c).1 10).trans (((dats 0 c).arrAt_in 10 rfl _).trans ((hA c 10).trans (atEntry_arg4 m c))),
      ((h c).1 11).trans (((dats 0 c).arrAt_in 11 rfl _).trans ((hA c 11).trans (atEntry_arg5 m c))),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c),
      ((h c).2 main_arg8 (Pipeline.mem_restRefs_of main_arg8 (by decide) (by decide))).trans (atEntry_arg8 m c),
      ((h c).2 main_arg9 (Pipeline.mem_restRefs_of main_arg9 (by decide) (by decide))).trans (atEntry_arg9 m c)⟩) h

/-! ## What the body reads and what it leaves -/

abbrev whole_1024x128 : Rect S1024x128 := Rect.unit (s := S1024x128) ![0, 0] S1024x128.size inb_S1024x128_S1024x128_0_0
abbrev whole_1x128 : Rect S1x128 := Rect.unit (s := S1x128) ![0, 0] S1x128.size inb_S1x128_S1x128_0_0
abbrev whole_4096x3072 : Rect S4096x3072 := Rect.unit (s := S4096x3072) ![0, 0] S4096x3072.size inb_S4096x3072_S4096x3072_0_0
abbrev whole_4096x1 : Rect S4096x1 := Rect.unit (s := S4096x1) ![0, 0] S4096x1.size inb_S4096x1_S4096x1_0_0
abbrev whole_1x1024 : Rect S1x1024 := Rect.unit (s := S1x1024) ![0, 0] S1x1024.size inb_S1x1024_S1x1024_0_0
abbrev whole_1x1 : Rect S1x1 := Rect.unit (s := S1x1) ![0, 0] S1x1.size inb_S1x1_S1x1_0_0

section Outputs

/-- The forget, input and output gates and the candidate cell, from the fused product of the 4096 × 3072 weights
    with the stacked operand (lower state; own state and upper state each scaled by the boundary indicator) plus the bias. -/
def forgetGate (x0 : Vec F S4096x3072 .bf16) (x1 : Vec F S4096x1 .f32) (x2 : Vec F S1x1024 .f32) (x3 : Vec F S1x1024 .f32) (x4 : Vec F S1x1024 .f32) (x5 : Vec F S1x1 .f32) (x6 : Vec F S1024x128 .f32) (x7 : Vec F S1024x128 .f32) (x8 : Vec F S1024x128 .f32) (x9 : Vec F S1024x128 .f32) (x10 : Vec F S1x128 .f32) (x11 : Vec F S1x128 .f32) : FVec F S1024x128 .f32 := k0_pay3 (View.ld x6 whole_1024x128) (View.ld x8 whole_1024x128) (View.ld x7 whole_1024x128) (View.ld x10 whole_1x128) (View.ld x0 whole_4096x3072) (View.ld x1 whole_4096x1)
def inputGate (x0 : Vec F S4096x3072 .bf16) (x1 : Vec F S4096x1 .f32) (x2 : Vec F S1x1024 .f32) (x3 : Vec F S1x1024 .f32) (x4 : Vec F S1x1024 .f32) (x5 : Vec F S1x1 .f32) (x6 : Vec F S1024x128 .f32) (x7 : Vec F S1024x128 .f32) (x8 : Vec F S1024x128 .f32) (x9 : Vec F S1024x128 .f32) (x10 : Vec F S1x128 .f32) (x11 : Vec F S1x128 .f32) : FVec F S1024x128 .f32 := k0_pay4 (View.ld x6 whole_1024x128) (View.ld x8 whole_1024x128) (View.ld x7 whole_1024x128) (View.ld x10 whole_1x128) (View.ld x0 whole_4096x3072) (View.ld x1 whole_4096x1)
def outputGate (x0 : Vec F S4096x3072 .bf16) (x1 : Vec F S4096x1 .f32) (x2 : Vec F S1x1024 .f32) (x3 : Vec F S1x1024 .f32) (x4 : Vec F S1x1024 .f32) (x5 : Vec F S1x1 .f32) (x6 : Vec F S1024x128 .f32) (x7 : Vec F S1024x128 .f32) (x8 : Vec F S1024x128 .f32) (x9 : Vec F S1024x128 .f32) (x10 : Vec F S1x128 .f32) (x11 : Vec F S1x128 .f32) : FVec F S1024x128 .f32 := k0_pay5 (View.ld x6 whole_1024x128) (View.ld x8 whole_1024x128) (View.ld x7 whole_1024x128) (View.ld x10 whole_1x128) (View.ld x0 whole_4096x3072) (View.ld x1 whole_4096x1)
def candidate (x0 : Vec F S4096x3072 .bf16) (x1 : Vec F S4096x1 .f32) (x2 : Vec F S1x1024 .f32) (x3 : Vec F S1x1024 .f32) (x4 : Vec F S1x1024 .f32) (x5 : Vec F S1x1 .f32) (x6 : Vec F S1024x128 .f32) (x7 : Vec F S1024x128 .f32) (x8 : Vec F S1024x128 .f32) (x9 : Vec F S1024x128 .f32) (x10 : Vec F S1x128 .f32) (x11 : Vec F S1x128 .f32) : FVec F S1024x128 .f32 := k0_pay6 (View.ld x6 whole_1024x128) (View.ld x8 whole_1024x128) (View.ld x7 whole_1024x128) (View.ld x10 whole_1x128) (View.ld x0 whole_4096x3072) (View.ld x1 whole_4096x1)

/-- The new cell state, before it is stored. -/
def cellValue (x0 : Vec F S4096x3072 .bf16) (x1 : Vec F S4096x1 .f32) (x2 : Vec F S1x1024 .f32) (x3 : Vec F S1x1024 .f32) (x4 : Vec F S1x1024 .f32) (x5 : Vec F S1x1 .f32) (x6 : Vec F S1024x128 .f32) (x7 : Vec F S1024x128 .f32) (x8 : Vec F S1024x128 .f32) (x9 : Vec F S1024x128 .f32) (x10 : Vec F S1x128 .f32) (x11 : Vec F S1x128 .f32) : FVec F S1024x128 .f32 :=
  k0_pay14 (View.ld x9 whole_1024x128) (View.ld x10 whole_1x128) (View.ld x11 whole_1x128) (forgetGate x0 x1 x2 x3 x4 x5 x6 x7 x8 x9 x10 x11) (inputGate x0 x1 x2 x3 x4 x5 x6 x7 x8 x9 x10 x11) (candidate x0 x1 x2 x3 x4 x5 x6 x7 x8 x9 x10 x11)

/-- The new boundary indicator, before it is stored: the three row products, combined and thresholded. -/
def boundaryValue (x0 : Vec F S4096x3072 .bf16) (x1 : Vec F S4096x1 .f32) (x2 : Vec F S1x1024 .f32) (x3 : Vec F S1x1024 .f32) (x4 : Vec F S1x1024 .f32) (x5 : Vec F S1x1 .f32) (x6 : Vec F S1024x128 .f32) (x7 : Vec F S1024x128 .f32) (x8 : Vec F S1024x128 .f32) (x9 : Vec F S1024x128 .f32) (x10 : Vec F S1x128 .f32) (x11 : Vec F S1x128 .f32) : FVec F S1x128 .f32 :=
  k0_pay9 (View.ld x8 whole_1024x128) (View.ld x7 whole_1024x128) (View.ld x10 whole_1x128) (k0_pay7 (View.ld x6 whole_1024x128) (View.ld x2 whole_1x1024)) (k0_pay8 (View.ld x4 whole_1x1024))
    (constant S1x128 .f32 0x00000000#32) (View.ld x3 whole_1x1024) (View.ld x5 whole_1x1)

/-- The new hidden state, before it is stored. -/
def hiddenValue (x0 : Vec F S4096x3072 .bf16) (x1 : Vec F S4096x1 .f32) (x2 : Vec F S1x1024 .f32) (x3 : Vec F S1x1024 .f32) (x4 : Vec F S1x1024 .f32) (x5 : Vec F S1x1 .f32) (x6 : Vec F S1024x128 .f32) (x7 : Vec F S1024x128 .f32) (x8 : Vec F S1024x128 .f32) (x9 : Vec F S1024x128 .f32) (x10 : Vec F S1x128 .f32) (x11 : Vec F S1x128 .f32) : FVec F S1024x128 .f32 :=
  k0_pay1 (outputGate x0 x1 x2 x3 x4 x5 x6 x7 x8 x9 x10 x11) (k0_pay11 (View.ld x11 whole_1x128)) (k0_pay12 (View.ld x10 whole_1x128))
    (k0_pay15 (View.ld x9 whole_1024x128) (View.ld x10 whole_1x128) (View.ld x11 whole_1x128) (forgetGate x0 x1 x2 x3 x4 x5 x6 x7 x8 x9 x10 x11) (inputGate x0 x1 x2 x3 x4 x5 x6 x7 x8 x9 x10 x11) (candidate x0 x1 x2 x3 x4 x5 x6 x7 x8 x9 x10 x11))
    (k0_pay16 (View.ld x7 whole_1024x128) (View.ld x9 whole_1024x128) (View.ld x10 whole_1x128) (View.ld x11 whole_1x128) (forgetGate x0 x1 x2 x3 x4 x5 x6 x7 x8 x9 x10 x11) (inputGate x0 x1 x2 x3 x4 x5 x6 x7 x8 x9 x10 x11) (outputGate x0 x1 x2 x3 x4 x5 x6 x7 x8 x9 x10 x11) (candidate x0 x1 x2 x3 x4 x5 x6 x7 x8 x9 x10 x11))

/-- Each output buffer after the body: its one store, through the whole-block rectangle. -/
def hiddenOut (x0 : Vec F S4096x3072 .bf16) (x1 : Vec F S4096x1 .f32) (x2 : Vec F S1x1024 .f32) (x3 : Vec F S1x1024 .f32) (x4 : Vec F S1x1024 .f32) (x5 : Vec F S1x1 .f32) (x6 : Vec F S1024x128 .f32) (x7 : Vec F S1024x128 .f32) (x8 : Vec F S1024x128 .f32) (x9 : Vec F S1024x128 .f32) (x10 : Vec F S1x128 .f32) (x11 : Vec F S1x128 .f32) : Vec F S1024x128 .f32 := View.canon [⟨whole_1024x128, hiddenValue x0 x1 x2 x3 x4 x5 x6 x7 x8 x9 x10 x11⟩]
def cellOut (x0 : Vec F S4096x3072 .bf16) (x1 : Vec F S4096x1 .f32) (x2 : Vec F S1x1024 .f32) (x3 : Vec F S1x1024 .f32) (x4 : Vec F S1x1024 .f32) (x5 : Vec F S1x1 .f32) (x6 : Vec F S1024x128 .f32) (x7 : Vec F S1024x128 .f32) (x8 : Vec F S1024x128 .f32) (x9 : Vec F S1024x128 .f32) (x10 : Vec F S1x128 .f32) (x11 : Vec F S1x128 .f32) : Vec F S1024x128 .f32 := View.canon [⟨whole_1024x128, cellValue x0 x1 x2 x3 x4 x5 x6 x7 x8 x9 x10 x11⟩]
def boundaryOut (x0 : Vec F S4096x3072 .bf16) (x1 : Vec F S4096x1 .f32) (x2 : Vec F S1x1024 .f32) (x3 : Vec F S1x1024 .f32) (x4 : Vec F S1x1024 .f32) (x5 : Vec F S1x1 .f32) (x6 : Vec F S1024x128 .f32) (x7 : Vec F S1024x128 .f32) (x8 : Vec F S1024x128 .f32) (x9 : Vec F S1024x128 .f32) (x10 : Vec F S1x128 .f32) (x11 : Vec F S1x128 .f32) : Vec F S1x128 .f32 := View.canon [⟨whole_1x128, boundaryValue x0 x1 x2 x3 x4 x5 x6 x7 x8 x9 x10 x11⟩]

end Outputs

/-- A whole-block store covers its block. -/
theorem cover_1024x128 (p0 : Vec F S1024x128 .f32) (y : S1024x128.Idx) :
    ∃ pc ∈ ([⟨whole_1024x128, p0⟩] : List (View.Piece (Elt F) S1024x128 .f32)), y ∈ pc.1.set :=
  View.cover_of_tiled [⟨whole_1024x128, p0⟩] S1024x128.size (by rfl) y
theorem cover_1x128 (p0 : Vec F S1x128 .f32) (y : S1x128.Idx) :
    ∃ pc ∈ ([⟨whole_1x128, p0⟩] : List (View.Piece (Elt F) S1x128 .f32)), y ∈ pc.1.set :=
  View.cover_of_tiled [⟨whole_1x128, p0⟩] S1x128.size (by rfl) y

/-! ## The body's triple -/

set_option maxHeartbeats 4000000 in
/-- On whole buffers, the inputs' at contents `x0 … x11` and the outputs' at anything, the body runs to its
    continuation with the inputs' as they were and the outputs' at `hiddenOut`, `cellOut`, `boundaryOut`. -/
theorem body_triple (c : Dev nD) (E : Set ℕ) (i : grid0.Coords) (arg1 : Memref sig .tc .vmem S4096x3072 .bf16) (harg1 : arg1.IsWhole) (arg2 : Memref sig .tc .vmem S4096x1 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1x128 .f32) (harg15 : arg15.IsWhole)
    (x0 : Vec F S4096x3072 .bf16) (x1 : Vec F S4096x1 .f32) (x2 : Vec F S1x1024 .f32) (x3 : Vec F S1x1024 .f32) (x4 : Vec F S1x1024 .f32) (x5 : Vec F S1x1 .f32) (x6 : Vec F S1024x128 .f32) (x7 : Vec F S1024x128 .f32) (x8 : Vec F S1024x128 .f32) (x9 : Vec F S1024x128 .f32) (x10 : Vec F S1x128 .f32) (x11 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (hiddenOut x0 x1 x2 x3 x4 x5 x6 x7 x8 x9 x10 x11) ∗ owns (c : Thread nD τ) arg14 fullShare (cellOut x0 x1 x2 x3 x4 x5 x6 x7 x8 x9 x10 x11) ∗ owns (c : Thread nD τ) arg15 fullShare (boundaryOut x0 x1 x2 x3 x4 x5 x6 x7 x8 x9 x10 x11)) -∗ K ⟨⟩))
      ⊢ wp frame (wpE (defs₀ (F := F)) Variants.none c none) E (cc0__hmlstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__hmlstm_kernel_eq_skeleton]; unfold cc0__hmlstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover_1024x128 _)
  isplitl [H13]
  · iexists _; isplitr
    swap; · iexact H13
    ipureintro
    exact View.read_writes_eq_canon _ _ _ (cover_1024x128 _)
  iexists _; isplitr
  swap; · iexact H14
  ipureintro
  exact View.read_writes_eq_canon _ _ _ (cover_1x128 _)

/-! ## The pipeline's proof data -/

/-- On core `c`: the arrays as the launch finds them; after the body at tile `t` each input buffer at its block
    and each output buffer at the body's function of the twelve input blocks; the invariant the untouched rest
    (no scratch, the generator register); nothing owed; full shares. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => blockAt m c 10 t
    | ⟨11, _⟩ => blockAt m c 11 t
    | ⟨12, _⟩ => hiddenOut (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t)
    | ⟨13, _⟩ => cellOut (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t)
    | ⟨14, _⟩ => boundaryOut (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t)
  Φ _ := Pipeline.ΦA spec0 c
  q _ := fullShare
  owed _ := 0

theorem A_eq (c : Dev nD) (w : Fin cfg0.W) : (dats m 0 c).A w = atEntry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t = blockAt m c 7 t := by dsimp only [dats]
theorem after_8 (c : Dev nD) (t : Fin cfg0.N) : (dats m 0 c).after 8 t = blockAt m c 8 t := by dsimp only [dats]
theorem after_9 (c : Dev nD) (t : Fin cfg0.N) : (dats m 0 c).after 9 t = blockAt m c 9 t := by dsimp only [dats]
theorem after_10 (c : Dev nD) (t : Fin cfg0.N) : (dats m 0 c).after 10 t = blockAt m c 10 t := by dsimp only [dats]
theorem after_11 (c : Dev nD) (t : Fin cfg0.N) : (dats m 0 c).after 11 t = blockAt m c 11 t := by dsimp only [dats]
theorem after_12 (c : Dev nD) (t : Fin cfg0.N) : (dats m 0 c).after 12 t = hiddenOut (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) := by dsimp only [dats]
theorem after_13 (c : Dev nD) (t : Fin cfg0.N) : (dats m 0 c).after 13 t = cellOut (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) := by dsimp only [dats]
theorem after_14 (c : Dev nD) (t : Fin cfg0.N) : (dats m 0 c).after 14 t = boundaryOut (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) := by dsimp only [dats]

theorem before_0 (c : Dev nD) (t : Fin cfg0.N) (d) : (dats m 0 c).before 0 t d = blockAt m c 0 t :=
  held_0 m (dats m 0 c) (A_eq m c 0) (after_0 m c) t d
theorem before_1 (c : Dev nD) (t : Fin cfg0.N) (d) : (dats m 0 c).before 1 t d = blockAt m c 1 t :=
  held_1 m (dats m 0 c) (A_eq m c 1) (after_1 m c) t d
theorem before_2 (c : Dev nD) (t : Fin cfg0.N) (d) : (dats m 0 c).before 2 t d = blockAt m c 2 t :=
  held_2 m (dats m 0 c) (A_eq m c 2) (after_2 m c) t d
theorem before_3 (c : Dev nD) (t : Fin cfg0.N) (d) : (dats m 0 c).before 3 t d = blockAt m c 3 t :=
  held_3 m (dats m 0 c) (A_eq m c 3) (after_3 m c) t d
theorem before_4 (c : Dev nD) (t : Fin cfg0.N) (d) : (dats m 0 c).before 4 t d = blockAt m c 4 t :=
  held_4 m (dats m 0 c) (A_eq m c 4) (after_4 m c) t d
theorem before_5 (c : Dev nD) (t : Fin cfg0.N) (d) : (dats m 0 c).before 5 t d = blockAt m c 5 t :=
  held_5 m (dats m 0 c) (A_eq m c 5) (after_5 m c) t d
theorem before_6 (c : Dev nD) (t : Fin cfg0.N) (d) : (dats m 0 c).before 6 t d = blockAt m c 6 t :=
  held_6 m (dats m 0 c) (A_eq m c 6) (after_6 m c) t d
theorem before_7 (c : Dev nD) (t : Fin cfg0.N) (d) : (dats m 0 c).before 7 t d = blockAt m c 7 t :=
  held_7 m (dats m 0 c) (A_eq m c 7) (after_7 m c) t d
theorem before_8 (c : Dev nD) (t : Fin cfg0.N) (d) : (dats m 0 c).before 8 t d = blockAt m c 8 t :=
  held_8 m (dats m 0 c) (A_eq m c 8) (after_8 m c) t d
theorem before_9 (c : Dev nD) (t : Fin cfg0.N) (d) : (dats m 0 c).before 9 t d = blockAt m c 9 t :=
  held_9 m (dats m 0 c) (A_eq m c 9) (after_9 m c) t d
theorem before_10 (c : Dev nD) (t : Fin cfg0.N) (d) : (dats m 0 c).before 10 t d = blockAt m c 10 t :=
  held_10 m (dats m 0 c) (A_eq m c 10) (after_10 m c) t d
theorem before_11 (c : Dev nD) (t : Fin cfg0.N) (d) : (dats m 0 c).before 11 t d = blockAt m c 11 t :=
  held_11 m (dats m 0 c) (A_eq m c 11) (after_11 m c) t d

/-! ## The body obligation at a tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 1000000 in
/-- At any tile the input buffers hold their blocks, so the body's triple applies; the invariant and what is owed
    pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_triple c Set.univ _ _ _ _ _ _ _ _ _ _ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every tile. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- Every weakly fair execution of @main terminates, nothing faulting, each array of the pipeline ending at what
    the library computes from the proof data and every other unscoped buffer as the launch found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := main_to_launch m Variants.none) (hA := A_eq m) (hΦ := fun _ _ => rfl)

/-- The frame: @main runs to the end and its ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Frame

end
-- ==== Proof.LibERealFinite.lean ====
/-
  Two general facts about extended reals read as ideal float values.

  * `coe_sum`: the coercion of the reals into the extended reals commutes with finite sums, so an identity between sums
    and products of real-valued entries can be proved over the reals and carried back.
  * `real_of_abs_lt`: an extended real whose absolute value `max x (-x)` compares strictly below the f32 pattern of `+∞`
    (`0x7F800000`) is a real number — what a "every entry is finite" precondition gives, entry by entry (`inf_eq`: that
    pattern is `⊤`).
-/
import Idealize.ShloMosaic.PureOps.Ideal

noncomputable section

namespace Cert.LibERealFinite

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern `0x7F800000` is `+∞`. -/
theorem inf_eq : Ideal.ofBits .f32 0x7F800000#32 = (⊤ : EReal) := by
  simp [Ideal.ofBits, Ideal.ieee]

/-- An extended real whose absolute value compares strictly below `+∞` is a real number. -/
theorem real_of_abs_lt (x : EReal) (h : Ideal.cmp .olt (max x (-x)) (Ideal.ofBits .f32 0x7F800000#32) = 1#1) :
    ∃ v : ℝ, x = (v : EReal) := by
  rw [inf_eq] at h
  induction x using EReal.rec with
  | bot => simp [Ideal.cmp] at h
  | coe v => exact ⟨v, rfl⟩
  | top => simp [Ideal.cmp] at h

end Cert.LibERealFinite

end
-- ==== Proof.Finite.lean ====
/-
  The precondition, read entry by entry.  The printed predicate is a conjunction of ten tests "every entry of this
  argument has absolute value strictly below +∞"; when it holds, every entry of every argument is a real number.
-/
import proofs.«120162_j41540923687172_2_alg».proof.Pre_finite_inputs
import proofs.«120162_j41540923687172_2_alg».proof.Proof.Gen.Pre_finite_inputs
import proofs.«120162_j41540923687172_2_alg».proof.Proof.LibERealFinite
import Idealize.ShloMosaic.PureOps.Ideal
import Idealize.ShloMosaic.Lib.ValueIdx
import Idealize.ShloMosaic.Lib.ReduceAll
import Idealize.ShloMosaic.Lib.Affine

noncomputable section

namespace Cert.Finite

open Idealize.ShloMosaic Cert.Pre_finite_inputs Cert.Pre_finite_inputs.Gen Cert.LibERealFinite

instance : Subsingleton S_.Idx := ⟨fun a b => funext fun d => d.elim0⟩

/-- One test of the conjunction, at one entry. -/
theorem real_of_test {s : Shape} (a : FVec Ideal s .f32) (bound : FVec Ideal s .f32)
    (hb : ∀ i, bound i = Ideal.ofBits .f32 0x7F800000#32) (i : s.Idx)
    (h : cmpf .olt (Host.absf a) bound i = 1#1) : ∃ v : ℝ, a i = (v : EReal) := by
  refine real_of_abs_lt (a i) ?_
  have := h
  simp only [cmpf, Host.absf, hb] at this
  exact this

/-- Under the precondition every entry of the ten arguments is real. -/
theorem entries_real (a0 a1 a2 a3 : FVec Ideal S1024x2048 .f32) (a4 a5 : FVec Ideal S1x2048 .f32)
    (a6 a7 a8 : FVec Ideal S4097x1024 .f32) (a9 : FVec Ideal S4097 .f32)
    (h : fn (F := Ideal) a0 a1 a2 a3 a4 a5 a6 a7 a8 a9 = fun _ => 1#1) :
    (∀ i, ∃ v : ℝ, a0 i = (v : EReal)) ∧ (∀ i, ∃ v : ℝ, a1 i = (v : EReal)) ∧ (∀ i, ∃ v : ℝ, a2 i = (v : EReal))
    ∧ (∀ i, ∃ v : ℝ, a3 i = (v : EReal)) ∧ (∀ i, ∃ v : ℝ, a4 i = (v : EReal)) ∧ (∀ i, ∃ v : ℝ, a5 i = (v : EReal))
    ∧ (∀ i, ∃ v : ℝ, a6 i = (v : EReal)) ∧ (∀ i, ∃ v : ℝ, a7 i = (v : EReal)) ∧ (∀ i, ∃ v : ℝ, a8 i = (v : EReal))
    ∧ (∀ i, ∃ v : ℝ, a9 i = (v : EReal)) := by
  have h0 := congrFun h ValueIdx.ix0
  dsimp only [fn, fn_part1, fn_part2] at h0
  simp only [andi, IntOp.andi_eq_one] at h0
  obtain ⟨⟨⟨⟨⟨⟨⟨⟨⟨e0, e1⟩, e2⟩, e3⟩, e4⟩, e5⟩, e6⟩, e7⟩, e8⟩, e9⟩ := h0
  refine ⟨fun i => ?_, fun i => ?_, fun i => ?_, fun i => ?_, fun i => ?_, fun i => ?_, fun i => ?_, fun i => ?_, fun i => ?_, fun i => ?_⟩
  · exact real_of_test a0 _ (fun _ => rfl) i (Host.reduce_andi_all _ _ _ _ _ e0 i)
  · exact real_of_test a1 _ (fun _ => rfl) i (Host.reduce_andi_all _ _ _ _ _ e1 i)
  · exact real_of_test a2 _ (fun _ => rfl) i (Host.reduce_andi_all _ _ _ _ _ e2 i)
  · exact real_of_test a3 _ (fun _ => rfl) i (Host.reduce_andi_all _ _ _ _ _ e3 i)
  · exact real_of_test a4 _ (fun _ => rfl) i (Host.reduce_andi_all _ _ _ _ _ e4 i)
  · exact real_of_test a5 _ (fun _ => rfl) i (Host.reduce_andi_all _ _ _ _ _ e5 i)
  · exact real_of_test a6 _ (fun _ => rfl) i (Host.reduce_andi_all _ _ _ _ _ e6 i)
  · exact real_of_test a7 _ (fun _ => rfl) i (Host.reduce_andi_all _ _ _ _ _ e7 i)
  · exact real_of_test a8 _ (fun _ => rfl) i (Host.reduce_andi_all _ _ _ _ _ e8 i)
  · exact real_of_test a9 _ (fun _ => rfl) i (Host.reduce_andi_all _ _ _ _ _ e9 i)

end Cert.Finite

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibStackedContraction.lean ====
/-
  A contraction over three stacked blocks of one length, the second and the third block's operand entries each scaled by
  one number `z`: at real values it is the first block's contraction, plus `z` times the third block's, plus `z`
  times the second block's.  The scale moves from the operand side (inside the sum) to the result side (outside it) by
  distributivity, which the extended reals have at finite values only — so the law is proved over the reals and carried
  to the extended reals through the coercion.

  * `sum_three_blocks`: a sum over `Fin (n + n + n)` is the sum of its three blocks' sums (any commutative monoid).
  * `real_stacked`: the law over the reals.
  * `stacked`: the law on the extended reals, for a summand given block by block at real entries.
-/
import Idealize.ShloMosaic.PureOps.Ideal
import proofs.«120162_j41540923687172_2_alg».proof.Proof.LibERealFinite

noncomputable section

open scoped BigOperators

namespace Cert.LibStackedContraction

open Cert.LibERealFinite

/-- A sum over three stacked blocks of length `n` is the sum of the three blocks' sums. -/
theorem sum_three_blocks {M : Type*} [AddCommMonoid M] {n : ℕ} (f : Fin (n + n + n) → M) :
    ∑ k, f k = (∑ k : Fin n, f (Fin.castAdd n (Fin.castAdd n k))) + (∑ k : Fin n, f (Fin.castAdd n (Fin.natAdd n k)))
      + ∑ k : Fin n, f (Fin.natAdd (n + n) k) := by
  rw [Fin.sum_univ_add, Fin.sum_univ_add]

/-- Over the reals: the scale `z` on the second and third blocks' operands comes out of their sums. -/
theorem real_stacked {n : ℕ} (w u v x y y' : Fin n → ℝ) (z : ℝ) :
    (∑ k, w k * x k) + (∑ k, u k * (y k * z)) + (∑ k, v k * (y' k * z))
      = ((∑ k, w k * x k) + z * ∑ k, v k * y' k) + z * ∑ k, u k * y k := by
  rw [Finset.mul_sum, Finset.mul_sum]
  have e1 : ∀ k, u k * (y k * z) = z * (u k * y k) := fun k => by ring
  have e2 : ∀ k, v k * (y' k * z) = z * (v k * y' k) := fun k => by ring
  simp only [e1, e2]
  ring

/-- On the extended reals, at real entries: a summand over three stacked blocks that is `w·x` on the first,
    `u·(y·z)` on the second and `v·(y'·z)` on the third sums to `(Σ w·x + z · Σ v·y') + z · Σ u·y`. -/
theorem stacked {n : ℕ} (f : Fin (n + n + n) → EReal) (w u v x y y' : Fin n → ℝ) (z : ℝ)
    (h0 : ∀ k : Fin n, f (Fin.castAdd n (Fin.castAdd n k)) = (w k : EReal) * (x k : EReal))
    (h1 : ∀ k : Fin n, f (Fin.castAdd n (Fin.natAdd n k)) = (u k : EReal) * ((y k : EReal) * (z : EReal)))
    (h2 : ∀ k : Fin n, f (Fin.natAdd (n + n) k) = (v k : EReal) * ((y' k : EReal) * (z : EReal))) :
    ∑ k, f k = ((∑ k, (w k : EReal) * (x k : EReal)) + (z : EReal) * ∑ k, (v k : EReal) * (y' k : EReal))
      + (z : EReal) * ∑ k, (u k : EReal) * (y k : EReal) := by
  rw [sum_three_blocks]
  simp only [h0, h1, h2, ← EReal.coe_mul, ← coe_sum, ← EReal.coe_add]
  exact congrArg _ (real_stacked w u v x y y' z)

end Cert.LibStackedContraction

end
-- ==== Proof.LibConcatThree.lean ====
/-
  Three equal pieces laid side by side.

  Three `[m, n]` arrays concatenated along axis 1 into an `[m, N]` array read, at `(p, j)`, the first piece at `(p, j)` when
  `j` is one of its `n` columns, the second at `(p, j - n)` when `j` is one of the next `n`, and the third at
  `(p, j - 2n)` otherwise: the piece whose span of columns holds `j`, at `j` less the columns before that span.
-/
import Idealize.ShloMosaic.Lib.Pipeline.Value
import Idealize.ShloMosaic.Lib.ValueIdx

namespace Cert.LibConcatThree

open Idealize.ShloMosaic Idealize.ShloMosaic.ValueIdx

variable {α : Type}

/-- Off the concatenated axis the piece's index has the whole array's coordinates. -/
private theorem off_axis {m n N : ℕ} (p : Fin m) (q : Fin n) (j : Fin N)
    (hr : (⟨2, ![m, n]⟩ : Shape).rank = (⟨2, ![m, N]⟩ : Shape).rank) :
    ∀ b : Fin (⟨2, ![m, n]⟩ : Shape).rank, b.cast hr ≠ (1 : Fin 2) → ((ix2 p q : (⟨2, ![m, n]⟩ : Shape).Idx) b).val = ((ix2 p j : (⟨2, ![m, N]⟩ : Shape).Idx) (b.cast hr)).val := by
  intro b hb
  match b with
  | ⟨0, _⟩ => rfl
  | ⟨1, _⟩ => exact absurd rfl hb

/-- A column of the first piece. -/
theorem concat3_cols_first {m n N : ℕ} (W0 W1 W2 : (⟨2, ![m, n]⟩ : Shape).Idx → α)
    (hc : Shape.Concatenates [(⟨2, ![m, n]⟩ : Shape), ⟨2, ![m, n]⟩, ⟨2, ![m, n]⟩] ⟨2, ![m, N]⟩ (1 : Fin 2))
    (p : Fin m) (q : Fin n) (j : Fin N) (hj : j.val = q.val) :
    concatenate ⟨2, ![m, N]⟩ (1 : Fin 2) [⟨⟨2, ![m, n]⟩, W0⟩, ⟨⟨2, ![m, n]⟩, W1⟩, ⟨⟨2, ![m, n]⟩, W2⟩] hc (ix2 p j) = W0 (ix2 p q) :=
  concatenate_apply_piece (t := ⟨2, ![m, N]⟩) (1 : Fin 2) [⟨⟨2, ![m, n]⟩, W0⟩, ⟨⟨2, ![m, n]⟩, W1⟩, ⟨⟨2, ![m, n]⟩, W2⟩] hc (ix2 p j) 0 (by simp) ⟨2, ![m, n]⟩ W0 rfl rfl 0 (by simp) (ix2 p q)
    (off_axis p q j rfl) (by show 0 + q.val = j.val; omega)

/-- A column of the second piece. -/
theorem concat3_cols_second {m n N : ℕ} (W0 W1 W2 : (⟨2, ![m, n]⟩ : Shape).Idx → α)
    (hc : Shape.Concatenates [(⟨2, ![m, n]⟩ : Shape), ⟨2, ![m, n]⟩, ⟨2, ![m, n]⟩] ⟨2, ![m, N]⟩ (1 : Fin 2))
    (p : Fin m) (q : Fin n) (j : Fin N) (hj : j.val = n + q.val) :
    concatenate ⟨2, ![m, N]⟩ (1 : Fin 2) [⟨⟨2, ![m, n]⟩, W0⟩, ⟨⟨2, ![m, n]⟩, W1⟩, ⟨⟨2, ![m, n]⟩, W2⟩] hc (ix2 p j) = W1 (ix2 p q) :=
  concatenate_apply_piece (t := ⟨2, ![m, N]⟩) (1 : Fin 2) [⟨⟨2, ![m, n]⟩, W0⟩, ⟨⟨2, ![m, n]⟩, W1⟩, ⟨⟨2, ![m, n]⟩, W2⟩] hc (ix2 p j) 1 (by simp) ⟨2, ![m, n]⟩ W1 rfl rfl n (by simp) (ix2 p q)
    (off_axis p q j rfl) (by show n + q.val = j.val; omega)

/-- A column of the third piece. -/
theorem concat3_cols_third {m n N : ℕ} (W0 W1 W2 : (⟨2, ![m, n]⟩ : Shape).Idx → α)
    (hc : Shape.Concatenates [(⟨2, ![m, n]⟩ : Shape), ⟨2, ![m, n]⟩, ⟨2, ![m, n]⟩] ⟨2, ![m, N]⟩ (1 : Fin 2))
    (p : Fin m) (q : Fin n) (j : Fin N) (hj : j.val = n + n + q.val) :
    concatenate ⟨2, ![m, N]⟩ (1 : Fin 2) [⟨⟨2, ![m, n]⟩, W0⟩, ⟨⟨2, ![m, n]⟩, W1⟩, ⟨⟨2, ![m, n]⟩, W2⟩] hc (ix2 p j) = W2 (ix2 p q) :=
  concatenate_apply_piece (t := ⟨2, ![m, N]⟩) (1 : Fin 2) [⟨⟨2, ![m, n]⟩, W0⟩, ⟨⟨2, ![m, n]⟩, W1⟩, ⟨⟨2, ![m, n]⟩, W2⟩] hc (ix2 p j) 2 (by simp) ⟨2, ![m, n]⟩ W2 rfl rfl (n + n) (by simp) (ix2 p q)
    (off_axis p q j rfl) (by show n + n + q.val = j.val; omega)

end Cert.LibConcatThree
-- ==== Proof.LibStackThree.lean ====
/-
  Three equal pieces stacked one above another.

  Three `[m, n]` arrays concatenated along axis 0 into an `[M, n]` array read, at `(j, q)`, the first piece at `(j, q)` when
  `j` is one of its `m` rows, the second at `(j - m, q)` when `j` is one of the next `m`, and the third at `(j - 2m, q)`
  otherwise: the piece whose span of rows holds `j`, at `j` less the rows above that span.  (The row twin of three pieces
  laid side by side.)
-/
import Idealize.ShloMosaic.Lib.Pipeline.Value
import Idealize.ShloMosaic.Lib.ValueIdx

namespace Cert.LibStackThree

open Idealize.ShloMosaic Idealize.ShloMosaic.ValueIdx

variable {α : Type}

/-- Off the stacked axis the piece's index has the whole array's coordinates. -/
private theorem off_axis {m n M : ℕ} (p : Fin m) (q : Fin n) (j : Fin M)
    (hr : (⟨2, ![m, n]⟩ : Shape).rank = (⟨2, ![M, n]⟩ : Shape).rank) :
    ∀ b : Fin (⟨2, ![m, n]⟩ : Shape).rank, b.cast hr ≠ (0 : Fin 2) → ((ix2 p q : (⟨2, ![m, n]⟩ : Shape).Idx) b).val = ((ix2 j q : (⟨2, ![M, n]⟩ : Shape).Idx) (b.cast hr)).val := by
  intro b hb
  match b with
  | ⟨0, _⟩ => exact absurd rfl hb
  | ⟨1, _⟩ => rfl

/-- A row of the first piece. -/
theorem stack3_rows_first {m n M : ℕ} (X0 X1 X2 : (⟨2, ![m, n]⟩ : Shape).Idx → α)
    (hc : Shape.Concatenates [(⟨2, ![m, n]⟩ : Shape), ⟨2, ![m, n]⟩, ⟨2, ![m, n]⟩] ⟨2, ![M, n]⟩ (0 : Fin 2))
    (p : Fin m) (q : Fin n) (j : Fin M) (hj : j.val = p.val) :
    concatenate ⟨2, ![M, n]⟩ (0 : Fin 2) [⟨⟨2, ![m, n]⟩, X0⟩, ⟨⟨2, ![m, n]⟩, X1⟩, ⟨⟨2, ![m, n]⟩, X2⟩] hc (ix2 j q) = X0 (ix2 p q) :=
  concatenate_apply_piece (t := ⟨2, ![M, n]⟩) (0 : Fin 2) [⟨⟨2, ![m, n]⟩, X0⟩, ⟨⟨2, ![m, n]⟩, X1⟩, ⟨⟨2, ![m, n]⟩, X2⟩] hc (ix2 j q) 0 (by simp) ⟨2, ![m, n]⟩ X0 rfl rfl 0 (by simp) (ix2 p q)
    (off_axis p q j rfl) (by show 0 + p.val = j.val; omega)

/-- A row of the second piece. -/
theorem stack3_rows_second {m n M : ℕ} (X0 X1 X2 : (⟨2, ![m, n]⟩ : Shape).Idx → α)
    (hc : Shape.Concatenates [(⟨2, ![m, n]⟩ : Shape), ⟨2, ![m, n]⟩, ⟨2, ![m, n]⟩] ⟨2, ![M, n]⟩ (0 : Fin 2))
    (p : Fin m) (q : Fin n) (j : Fin M) (hj : j.val = m + p.val) :
    concatenate ⟨2, ![M, n]⟩ (0 : Fin 2) [⟨⟨2, ![m, n]⟩, X0⟩, ⟨⟨2, ![m, n]⟩, X1⟩, ⟨⟨2, ![m, n]⟩, X2⟩] hc (ix2 j q) = X1 (ix2 p q) :=
  concatenate_apply_piece (t := ⟨2, ![M, n]⟩) (0 : Fin 2) [⟨⟨2, ![m, n]⟩, X0⟩, ⟨⟨2, ![m, n]⟩, X1⟩, ⟨⟨2, ![m, n]⟩, X2⟩] hc (ix2 j q) 1 (by simp) ⟨2, ![m, n]⟩ X1 rfl rfl m (by simp) (ix2 p q)
    (off_axis p q j rfl) (by show m + p.val = j.val; omega)

/-- A row of the third piece. -/
theorem stack3_rows_third {m n M : ℕ} (X0 X1 X2 : (⟨2, ![m, n]⟩ : Shape).Idx → α)
    (hc : Shape.Concatenates [(⟨2, ![m, n]⟩ : Shape), ⟨2, ![m, n]⟩, ⟨2, ![m, n]⟩] ⟨2, ![M, n]⟩ (0 : Fin 2))
    (p : Fin m) (q : Fin n) (j : Fin M) (hj : j.val = m + m + p.val) :
    concatenate ⟨2, ![M, n]⟩ (0 : Fin 2) [⟨⟨2, ![m, n]⟩, X0⟩, ⟨⟨2, ![m, n]⟩, X1⟩, ⟨⟨2, ![m, n]⟩, X2⟩] hc (ix2 j q) = X2 (ix2 p q) :=
  concatenate_apply_piece (t := ⟨2, ![M, n]⟩) (0 : Fin 2) [⟨⟨2, ![m, n]⟩, X0⟩, ⟨⟨2, ![m, n]⟩, X1⟩, ⟨⟨2, ![m, n]⟩, X2⟩] hc (ix2 j q) 2 (by simp) ⟨2, ![m, n]⟩ X2 rfl rfl (m + m) (by simp) (ix2 p q)
    (off_axis p q j rfl) (by show m + m + p.val = j.val; omega)

end Cert.LibStackThree
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.Gates.lean ====
/-
  The gate pre-activations of one tile, kernel against reference.

  The kernel is handed the 4096 gate rows of the three weight matrices side by side (one 4096 × 3072 matrix), stacks a
  tile's three operand blocks — the lower state, and the own and upper states each already multiplied by the tile's
  boundary indicators — into one 3072 × 128 block, and contracts once over 3072.  The reference contracts each weight
  matrix with its state over 1024 and multiplies the second and third products by the indicator afterwards.  At an entry
  both are  Σ W·h_below + z·Σ U21·h_above + z·Σ U11·h + bias : the indicator crosses the two sums by distributivity, which
  on the extended reals needs the entries finite.
-/
import proofs.«120162_j41540923687172_2_alg».proof.Proof.Gen.KernelIdeal.Skeleton
import proofs.«120162_j41540923687172_2_alg».proof.Proof.Gen.ReferenceIdeal.Read
import proofs.«120162_j41540923687172_2_alg».proof.Proof.LibPlainMatmul
import proofs.«120162_j41540923687172_2_alg».proof.Proof.LibStackedContraction
import Idealize.ShloMosaic.Lib.Pipeline.Value
import Idealize.ShloMosaic.Lib.ValueIdx
import Idealize.ShloMosaic.Lib.ValueLayout
import Idealize.ShloMosaic.PureOps.Ideal.Laws
import proofs.«120162_j41540923687172_2_alg».proof.Proof.LibConcatThree
import proofs.«120162_j41540923687172_2_alg».proof.Proof.LibStackThree
import proofs.«120162_j41540923687172_2_alg».proof.Proof.LibColumnCast
import proofs.«120162_j41540923687172_2_alg».proof.Proof.LibColumnBroadcast

set_option maxRecDepth 16384

noncomputable section

open scoped BigOperators

namespace Cert.Bridge

open Idealize.ShloMosaic Idealize.ShloMosaic.ValueIdx Cert.KernelIdeal Cert.KernelIdeal.Gen
open Cert.ReferenceIdeal (dot_S4097x1024_S1024x2048_S4097x2048_1_0_0_1_n_n)

abbrev Mat := FVec Ideal S1024x2048 .f32
abbrev Row := FVec Ideal S1x2048 .f32
abbrev Wts := FVec Ideal S4097x1024 .f32
abbrev Bia := FVec Ideal S4097 .f32

/-- Column tile `t` (128 columns) of a 1024 × 2048 array. -/
def colTile (t : Fin 16) (X : Mat) : FVec Ideal S1024x128 .f32 :=
  fun j => X (ix2 (j 0) ⟨t.val * 128 + (j 1).val, by have hj : (j 1).val < 128 := (j 1).isLt; have := t.isLt; show _ < 2048; omega⟩)
/-- Column tile `t` of a 1 × 2048 row. -/
def rowTile (t : Fin 16) (X : Row) : FVec Ideal S1x128 .f32 :=
  fun j => X (ix2 (j 0) ⟨t.val * 128 + (j 1).val, by have hj : (j 1).val < 128 := (j 1).isLt; have := t.isLt; show _ < 2048; omega⟩)

/-- The 4096 gate rows of the three weight matrices side by side. -/
def fused (W U11 U21 : Wts) : FVec Ideal S4096x3072 .bf16 :=
  truncf .bf16 (concatenate S4096x3072 1 [⟨S4096x1024, extractStridedSlice S4096x1024 ![0, 0] W slices_S4097x1024_S4096x1024_0_0⟩,
    ⟨S4096x1024, extractStridedSlice S4096x1024 ![0, 0] U11 slices_S4097x1024_S4096x1024_0_0⟩,
    ⟨S4096x1024, extractStridedSlice S4096x1024 ![0, 0] U21 slices_S4097x1024_S4096x1024_0_0⟩] concatenates_S4096x1024_S4096x1024_S4096x1024_S4096x3072_d1) bitsLt_bf16_f32

/-- The three operand blocks of a tile stacked: the lower state; the own state and the upper state, each scaled by the
    tile's boundary indicators. -/
def operand (t : Fin 16) (hb h ht : Mat) (z : Row) : FVec Ideal S3072x128 .bf16 :=
  concatenate S3072x128 0
    [⟨S1024x128, truncf .bf16 (colTile t hb) bitsLt_bf16_f32⟩,
      ⟨S1024x128, mulf (truncf .bf16 (colTile t h) bitsLt_bf16_f32)
        (broadcastTo S1024x128 (truncf .bf16 (rowTile t z) bitsLt_bf16_f32) broadcasts_S1x128_S1024x128)⟩,
      ⟨S1024x128, mulf (truncf .bf16 (colTile t ht) bitsLt_bf16_f32)
        (broadcastTo S1024x128 (truncf .bf16 (rowTile t z) bitsLt_bf16_f32) broadcasts_S1x128_S1024x128)⟩]
    concatenates_S1024x128_S1024x128_S1024x128_S3072x128_d0

/-- Column `t·128 + q` of the batch. -/
abbrev col (t : Fin 16) (q : Fin 128) : Fin 2048 := ⟨t.val * 128 + q.val, by have := q.isLt; have := t.isLt; omega⟩
/-- A gate row among the 4097 weight rows. -/
abbrev gateRow (r : Fin 4096) : Fin 4097 := ⟨r.val, by have := r.isLt; omega⟩

theorem colTile_apply (t : Fin 16) (X : Mat) (p : Fin 1024) (q : Fin 128) : colTile t X (ix2 p q) = X (ix2 p (col t q)) := rfl
theorem rowTile_apply (t : Fin 16) (X : Row) (q : Fin 128) : rowTile t X (ix2 (0 : Fin 1) q) = X (ix2 (0 : Fin 1) (col t q)) := rfl

/-- The fused weights at a column of the first block are the lower-state weights. -/
theorem fused_first (W U11 U21 : Wts) (r : Fin 4096) (k : Fin 1024) (j : Fin 3072) (hj : j.val = k.val) :
    (fused W U11 U21 (ix2 r j) : EReal) = W (ix2 (gateRow r) k) := by
  unfold fused
  rw [truncf_apply, Cert.LibConcatThree.concat3_cols_first _ _ _ _ r k j hj]
  exact extractStridedSlice_apply _ W _ (ix2 r k) (ix2 (gateRow r) k) (fun a => by
    match a with
    | ⟨0, _⟩ => show r.val = 0 + r.val; omega
    | ⟨1, _⟩ => show k.val = 0 + k.val; omega)
/-- At a column of the second block, the own-state weights. -/
theorem fused_second (W U11 U21 : Wts) (r : Fin 4096) (k : Fin 1024) (j : Fin 3072) (hj : j.val = 1024 + k.val) :
    (fused W U11 U21 (ix2 r j) : EReal) = U11 (ix2 (gateRow r) k) := by
  unfold fused
  rw [truncf_apply, Cert.LibConcatThree.concat3_cols_second _ _ _ _ r k j hj]
  exact extractStridedSlice_apply _ U11 _ (ix2 r k) (ix2 (gateRow r) k) (fun a => by
    match a with
    | ⟨0, _⟩ => show r.val = 0 + r.val; omega
    | ⟨1, _⟩ => show k.val = 0 + k.val; omega)
/-- At a column of the third block, the upper-state weights. -/
theorem fused_third (W U11 U21 : Wts) (r : Fin 4096) (k : Fin 1024) (j : Fin 3072) (hj : j.val = 1024 + 1024 + k.val) :
    (fused W U11 U21 (ix2 r j) : EReal) = U21 (ix2 (gateRow r) k) := by
  unfold fused
  rw [truncf_apply, Cert.LibConcatThree.concat3_cols_third _ _ _ _ r k j hj]
  exact extractStridedSlice_apply _ U21 _ (ix2 r k) (ix2 (gateRow r) k) (fun a => by
    match a with
    | ⟨0, _⟩ => show r.val = 0 + r.val; omega
    | ⟨1, _⟩ => show k.val = 0 + k.val; omega)

/-- The stacked operand at a row of the first block is the lower state. -/
theorem stacked_first (t : Fin 16) (hb h ht : Mat) (z : Row) (k : Fin 1024) (q : Fin 128) (j : Fin 3072) (hj : j.val = k.val) :
    (operand t hb h ht z (ix2 j q) : EReal) = hb (ix2 k (col t q)) := by
  unfold operand
  rw [Cert.LibStackThree.stack3_rows_first _ _ _ _ k q j hj, truncf_apply, colTile_apply]
/-- At a row of the second block, the own state times the boundary indicator. -/
theorem stacked_second (t : Fin 16) (hb h ht : Mat) (z : Row) (k : Fin 1024) (q : Fin 128) (j : Fin 3072) (hj : j.val = 1024 + k.val) :
    (operand t hb h ht z (ix2 j q) : EReal) = h (ix2 k (col t q)) * z (ix2 (0 : Fin 1) (col t q)) := by
  unfold operand
  rw [Cert.LibStackThree.stack3_rows_second _ _ _ _ k q j hj, mulf_apply, truncf_apply, colTile_apply,
    broadcastTo_1b_ab_apply, truncf_apply, rowTile_apply]
/-- At a row of the third block, the upper state times the boundary indicator. -/
theorem stacked_third (t : Fin 16) (hb h ht : Mat) (z : Row) (k : Fin 1024) (q : Fin 128) (j : Fin 3072) (hj : j.val = 1024 + 1024 + k.val) :
    (operand t hb h ht z (ix2 j q) : EReal) = ht (ix2 k (col t q)) * z (ix2 (0 : Fin 1) (col t q)) := by
  unfold operand
  rw [Cert.LibStackThree.stack3_rows_third _ _ _ _ k q j hj, mulf_apply, truncf_apply, colTile_apply,
    broadcastTo_1b_ab_apply, truncf_apply, rowTile_apply]

/-- The bias column handed to the kernel: the first 4096 entries of the bias, as a column. -/
def biasCol (bias : Bia) : FVec Ideal S4096x1 .f32 :=
  shapeCast S4096x1 (extractStridedSlice S4096 ![0] bias slices_S4097_S4096_0) shapeCasts_S4096_S4096x1

theorem biasCol_apply (bias : Bia) (r : Fin 4096) : (biasCol bias (ix2 r (0 : Fin 1)) : EReal) = bias (ix1 (gateRow r)) := by
  unfold biasCol
  rw [Cert.LibColumnCast.shapeCast_a_a1_apply]
  exact extractStridedSlice_apply _ bias _ (ix1 r) (ix1 (gateRow r)) (fun a => by
    match a with
    | ⟨0, _⟩ => show r.val = 0 + r.val; omega)

/-- THE GATE PRE-ACTIVATIONS.  At gate row `r` and column `q` of tile `t` the kernel contracts the fused weights' row with
    the stacked operand's column (3072 terms) and adds the bias; the reference adds three contractions of 1024 terms, the
    second and the third multiplied by the column's boundary indicator afterwards, and the bias.  At finite entries these
    are one number: the indicator moves across the two sums by distributivity. -/
theorem gate_pre (t : Fin 16) (hb h ht : Mat) (z : Row) (W U11 U21 : Wts) (bias : Bia)
    (fhb : ∀ i, ∃ v : ℝ, hb i = (v : EReal)) (fh : ∀ i, ∃ v : ℝ, h i = (v : EReal)) (fht : ∀ i, ∃ v : ℝ, ht i = (v : EReal))
    (fz : ∀ i, ∃ v : ℝ, z i = (v : EReal)) (fW : ∀ i, ∃ v : ℝ, W i = (v : EReal)) (fU11 : ∀ i, ∃ v : ℝ, U11 i = (v : EReal))
    (fU21 : ∀ i, ∃ v : ℝ, U21 i = (v : EReal))
    (r : Fin 4096) (q : Fin 128) :
    (k0_pay2 (F := Ideal) (colTile t hb) (colTile t ht) (colTile t h) (rowTile t z) (fused W U11 U21) (biasCol bias) (ix2 r q) : EReal)
      = (Cert.ReferenceIdeal.Read.val_main_v11 (F := Ideal) hb h ht z W U11 U21 bias (ix2 (gateRow r) (col t q)) : EReal) := by
  choose w hw using fW
  choose u hu using fU11
  choose v hv using fU21
  choose x hx using fhb
  choose y hy using fh
  choose y' hy' using fht
  choose ζ hζ using fz
  -- the reference's stage at the index
  rw [Cert.ReferenceIdeal.Read.val_main_v11_apply, Cert.ReferenceIdeal.Read.val_main_v8_apply, Cert.ReferenceIdeal.Read.val_main_v7_apply,
    Cert.ReferenceIdeal.Read.val_main_v0_apply, Cert.ReferenceIdeal.Read.val_main_v3_apply, Cert.ReferenceIdeal.Read.val_main_v2_apply,
    Cert.ReferenceIdeal.Read.val_main_v1_apply, Cert.ReferenceIdeal.Read.val_main_v6_apply, Cert.ReferenceIdeal.Read.val_main_v5_apply,
    Cert.ReferenceIdeal.Read.val_main_v4_apply, Cert.ReferenceIdeal.Read.val_main_v10_apply, Cert.ReferenceIdeal.Read.val_main_v9_apply]
  have eL0 : ∀ k, Cert.ReferenceIdeal.Read.lidx_main_v0 (ix2 (gateRow r) (col t q)) k = ix2 (gateRow r) k := fun k => funext fun a => by
    match a with
    | ⟨0, _⟩ => rfl
    | ⟨1, _⟩ => rfl
  have eR0 : ∀ k, Cert.ReferenceIdeal.Read.ridx_main_v0 (ix2 (gateRow r) (col t q)) k = ix2 k (col t q) := fun k => funext fun a => by
    match a with
    | ⟨0, _⟩ => rfl
    | ⟨1, _⟩ => rfl
  have eL1 : ∀ k, Cert.ReferenceIdeal.Read.lidx_main_v1 (ix2 (gateRow r) (col t q)) k = ix2 (gateRow r) k := fun k => funext fun a => by
    match a with
    | ⟨0, _⟩ => rfl
    | ⟨1, _⟩ => rfl
  have eR1 : ∀ k, Cert.ReferenceIdeal.Read.ridx_main_v1 (ix2 (gateRow r) (col t q)) k = ix2 k (col t q) := fun k => funext fun a => by
    match a with
    | ⟨0, _⟩ => rfl
    | ⟨1, _⟩ => rfl
  have eL4 : ∀ k, Cert.ReferenceIdeal.Read.lidx_main_v4 (ix2 (gateRow r) (col t q)) k = ix2 (gateRow r) k := fun k => funext fun a => by
    match a with
    | ⟨0, _⟩ => rfl
    | ⟨1, _⟩ => rfl
  have eR4 : ∀ k, Cert.ReferenceIdeal.Read.ridx_main_v4 (ix2 (gateRow r) (col t q)) k = ix2 k (col t q) := fun k => funext fun a => by
    match a with
    | ⟨0, _⟩ => rfl
    | ⟨1, _⟩ => rfl
  have eZ2 : Cert.ReferenceIdeal.Read.idx_main_v2 (ix2 (gateRow r) (col t q)) = ix2 (0 : Fin 1) (col t q) := funext fun a => by
    match a with
    | ⟨0, _⟩ => rfl
    | ⟨1, _⟩ => rfl
  have eZ5 : Cert.ReferenceIdeal.Read.idx_main_v5 (ix2 (gateRow r) (col t q)) = ix2 (0 : Fin 1) (col t q) := funext fun a => by
    match a with
    | ⟨0, _⟩ => rfl
    | ⟨1, _⟩ => rfl
  have eB : Cert.ReferenceIdeal.Read.idx_main_v9 (Cert.ReferenceIdeal.Read.idx_main_v10 (ix2 (gateRow r) (col t q))) = ix1 (gateRow r) := funext fun a => by
    match a with
    | ⟨0, _⟩ => rfl
  simp only [eL0, eR0, eL1, eR1, eL4, eR4, eZ2, eZ5, eB, Ideal.addf_def, Ideal.mulf_def]
  -- the kernel's payload at the index
  unfold k0_pay2
  have hd : dot_S4096x3072_S3072x128_S4096x128_1_0_0_1_n_n = DotDims.plain 4096 3072 128 := rfl
  rw [addf_apply, hd, matmul_plain_zero_apply, Cert.LibColumnBroadcast.broadcastTo_a1_ab_apply]
  simp only [shapeCast_self]
  rw [biasCol_apply]
  congr 1
  change ∑ c : Fin 3072, (fused W U11 U21 (ix2 r c) : EReal) * operand t hb h ht z (ix2 c q) = _
  refine (Cert.LibStackedContraction.stacked (n := 1024)
    (fun c : Fin (1024 + 1024 + 1024) => (fused W U11 U21 (ix2 r c) : EReal) * operand t hb h ht z (ix2 c q))
    (fun k => w (ix2 (gateRow r) k)) (fun k => u (ix2 (gateRow r) k)) (fun k => v (ix2 (gateRow r) k))
    (fun k => x (ix2 k (col t q))) (fun k => y (ix2 k (col t q))) (fun k => y' (ix2 k (col t q))) (ζ (ix2 (0 : Fin 1) (col t q)))
    (fun k => ?_) (fun k => ?_) (fun k => ?_)).trans ?_
  · show (fused W U11 U21 (ix2 r (Fin.castAdd 1024 (Fin.castAdd 1024 k))) : EReal) * operand t hb h ht z (ix2 (Fin.castAdd 1024 (Fin.castAdd 1024 k)) q) = _
    rw [fused_first W U11 U21 r k _ rfl, stacked_first t hb h ht z k q _ rfl, hw, hx]
  · show (fused W U11 U21 (ix2 r (Fin.castAdd 1024 (Fin.natAdd 1024 k))) : EReal) * operand t hb h ht z (ix2 (Fin.castAdd 1024 (Fin.natAdd 1024 k)) q) = _
    rw [fused_second W U11 U21 r k _ rfl, stacked_second t hb h ht z k q _ rfl, hu, hy, hζ]
  · show (fused W U11 U21 (ix2 r (Fin.natAdd (1024 + 1024) k)) : EReal) * operand t hb h ht z (ix2 (Fin.natAdd (1024 + 1024) k) q) = _
    rw [fused_third W U11 U21 r k _ rfl, stacked_third t hb h ht z k q _ rfl, hv, hy', hζ]
  · simp only [hw, hu, hv, hx, hy, hy', hζ]

/-- Row 4096 of a weight matrix: the boundary row. -/
def boundaryRow (W : Wts) : FVec Ideal S1x1024 .f32 :=
  extractStridedSlice S1x1024 ![4096, 0] W slices_S4097x1024_S1x1024_4096_0
/-- Entry 4096 of the bias, as a 1 × 1 array. -/
def boundaryBias (bias : Bia) : FVec Ideal S1x1 .f32 :=
  shapeCast S1x1 (extractStridedSlice S1 ![4096] bias slices_S4097_S1_4096) shapeCasts_S1_S1x1

/-- The last of the 4097 weight rows. -/
abbrev lastRow : Fin 4097 := ⟨4096, by omega⟩

theorem boundaryRow_apply (W : Wts) (k : Fin 1024) : (boundaryRow W (ix2 (0 : Fin 1) k) : EReal) = W (ix2 lastRow k) := by
  unfold boundaryRow
  exact extractStridedSlice_apply _ W _ (ix2 (0 : Fin 1) k) (ix2 lastRow k) (fun a => by
    match a with
    | ⟨0, _⟩ => rfl
    | ⟨1, _⟩ => show k.val = 0 + k.val; omega)

theorem boundaryBias_apply (bias : Bia) : (boundaryBias bias (ix2 (0 : Fin 1) (0 : Fin 1)) : EReal) = bias (ix1 lastRow) := by
  unfold boundaryBias
  rw [Cert.LibColumnCast.shapeCast_a_a1_apply]
  exact extractStridedSlice_apply _ bias _ (ix1 (0 : Fin 1)) (ix1 lastRow) (fun a => by
    match a with
    | ⟨0, _⟩ => rfl)

end Cert.Bridge

end
-- ==== Proof.Consts.lean ====
/-
  The float constants the two programs spell, as the extended reals their patterns denote: 1.0 is 1, 0.5 is one half,
  2.0 is 2.  Stated once, so that no other module unfolds the pattern reading.
-/
import Idealize.ShloMosaic.PureOps.Ideal

noncomputable section

namespace Cert.Bridge

open Idealize.ShloMosaic

/-- The f32 pattern of 1.0 denotes 1. -/
theorem ofBits_one : Ideal.ofBits .f32 0x3F800000#32 = (1 : EReal) := by
  simp [Ideal.ofBits, Ideal.ieee, -EReal.coe_mul]; norm_num
/-- The f32 pattern of 0.5 denotes one half. -/
theorem ofBits_half : Ideal.ofBits .f32 0x3F000000#32 = ((1 / 2 : ℝ) : EReal) := by
  simp [Ideal.ofBits, Ideal.ieee, -EReal.coe_mul]; norm_num
/-- The f32 pattern of 2.0 denotes 2. -/
theorem ofBits_two : Ideal.ofBits .f32 0x40000000#32 = ((2 : ℝ) : EReal) := by
  simp [Ideal.ofBits, Ideal.ieee, -EReal.coe_mul]; norm_num

end Cert.Bridge

end
-- ==== Proof.Cell.lean ====
/-
  The new cell state and the new hidden state of one tile, kernel against reference, entry by entry.

  Downstream of the gate pre-activations the two programs spell the same expression: with `z`, `z_b` the column's own and
  lower boundary indicators, `f, i, o` the logistic of the first three gate blocks and `g` the tanh of the fourth,
      c' = z·(i·g) + (1 − z)(1 − z_b)·c + (1 − z)·z_b·(f·c + i·g),
      h' = z·o·tanh c' + (1 − z)(1 − z_b)·h + (1 − z)·z_b·o·tanh c'.
  The kernel's logistic is the reference's  1 / (1 + e^(−x))  at exact values, so once the pre-activations agree (the gate
  module) the two sides are one term.
-/
import proofs.«120162_j41540923687172_2_alg».proof.Proof.Gates
import proofs.«120162_j41540923687172_2_alg».proof.Proof.Consts

set_option maxRecDepth 16384

noncomputable section

open scoped BigOperators

namespace Cert.Bridge

open Idealize.ShloMosaic Idealize.ShloMosaic.ValueIdx Cert.KernelIdeal Cert.KernelIdeal.Gen

section Payloads
variable (v0 v1 v2 : Vec Ideal S1024x128 .f32) (v4 v5 : Vec Ideal S1x128 .f32) (v15 : Vec Ideal S4096x3072 .bf16) (v18 : Vec Ideal S4096x1 .f32)
  (p : Fin 1024) (q : Fin 128)

/-- Gate block `n` (of four) of the pre-activations, row `p`. -/
abbrev blockRow (n : Fin 4) (p : Fin 1024) : Fin 4096 := ⟨n.val * 1024 + p.val, by have := n.isLt; have := p.isLt; omega⟩

theorem forget_at : (k0_pay3 (F := Ideal) v0 v1 v2 v4 v15 v18 (ix2 p q) : EReal) = Ideal.logistic (k0_pay2 (F := Ideal) v0 v1 v2 v4 v15 v18 (ix2 (blockRow 0 p) q)) := by
  unfold k0_pay3
  show FloatOps.logistic (extractStridedSlice S1024x128 ![0, 0] (k0_pay2 (F := Ideal) v0 v1 v2 v4 v15 v18) slices_S4096x128_o0_0_S1024x128 (ix2 p q)) = _
  rw [extractStridedSlice_apply _ _ _ (ix2 p q) (ix2 (blockRow 0 p) q) (fun a => by
    match a with
    | ⟨0, _⟩ => show 0 * 1024 + p.val = 0 + p.val; omega
    | ⟨1, _⟩ => show q.val = 0 + q.val; omega)]
  rfl
theorem input_at : (k0_pay4 (F := Ideal) v0 v1 v2 v4 v15 v18 (ix2 p q) : EReal) = Ideal.logistic (k0_pay2 (F := Ideal) v0 v1 v2 v4 v15 v18 (ix2 (blockRow 1 p) q)) := by
  unfold k0_pay4
  show FloatOps.logistic (extractStridedSlice S1024x128 ![1024, 0] (k0_pay2 (F := Ideal) v0 v1 v2 v4 v15 v18) slices_S4096x128_o1024_0_S1024x128 (ix2 p q)) = _
  rw [extractStridedSlice_apply _ _ _ (ix2 p q) (ix2 (blockRow 1 p) q) (fun a => by
    match a with
    | ⟨0, _⟩ => show 1 * 1024 + p.val = 1024 + p.val; omega
    | ⟨1, _⟩ => show q.val = 0 + q.val; omega)]
  rfl
theorem output_at : (k0_pay5 (F := Ideal) v0 v1 v2 v4 v15 v18 (ix2 p q) : EReal) = Ideal.logistic (k0_pay2 (F := Ideal) v0 v1 v2 v4 v15 v18 (ix2 (blockRow 2 p) q)) := by
  unfold k0_pay5
  show FloatOps.logistic (extractStridedSlice S1024x128 ![2048, 0] (k0_pay2 (F := Ideal) v0 v1 v2 v4 v15 v18) slices_S4096x128_o2048_0_S1024x128 (ix2 p q)) = _
  rw [extractStridedSlice_apply _ _ _ (ix2 p q) (ix2 (blockRow 2 p) q) (fun a => by
    match a with
    | ⟨0, _⟩ => show 2 * 1024 + p.val = 2048 + p.val; omega
    | ⟨1, _⟩ => show q.val = 0 + q.val; omega)]
  rfl
theorem candidate_at : (k0_pay6 (F := Ideal) v0 v1 v2 v4 v15 v18 (ix2 p q) : EReal) = Ideal.tanh (k0_pay2 (F := Ideal) v0 v1 v2 v4 v15 v18 (ix2 (blockRow 3 p) q)) := by
  unfold k0_pay6
  show FloatOps.tanh (extractStridedSlice S1024x128 ![3072, 0] (k0_pay2 (F := Ideal) v0 v1 v2 v4 v15 v18) slices_S4096x128_o3072_0_S1024x128 (ix2 p q)) = _
  rw [extractStridedSlice_apply _ _ _ (ix2 p q) (ix2 (blockRow 3 p) q) (fun a => by
    match a with
    | ⟨0, _⟩ => show 3 * 1024 + p.val = 3072 + p.val; omega
    | ⟨1, _⟩ => show q.val = 0 + q.val; omega)]
  rfl

/-- A 1 × 128 row spread over the 1024 rows. -/
theorem spread_at : (k0_pay10 (F := Ideal) v4 (ix2 p q) : EReal) = v4 (ix2 (0 : Fin 1) q) := by
  unfold k0_pay10
  rw [broadcastTo_1b_ab_apply, shapeCast_self]
theorem spread'_at : (k0_pay11 (F := Ideal) v5 (ix2 p q) : EReal) = v5 (ix2 (0 : Fin 1) q) := by
  unfold k0_pay11
  rw [broadcastTo_1b_ab_apply, shapeCast_self]
theorem oneMinus_at : (k0_pay12 (F := Ideal) v4 (ix2 p q) : EReal) = 1 - v4 (ix2 (0 : Fin 1) q) := by
  unfold k0_pay12
  rw [subf_apply, spread_at, broadcast_apply]
  show Ideal.ofBits .f32 0x3F800000#32 - _ = _
  rw [ofBits_one]
theorem oneMinus'_at : (k0_pay13 (F := Ideal) v5 (ix2 p q) : EReal) = 1 - v5 (ix2 (0 : Fin 1) q) := by
  unfold k0_pay13
  rw [subf_apply, spread'_at, broadcast_apply]
  show Ideal.ofBits .f32 0x3F800000#32 - _ = _
  rw [ofBits_one]

end Payloads

/-- The new cell state at an entry of a tile, kernel against reference: the same expression of the column's two boundary
    indicators, the old cell state and the forget, input and candidate gates, once the gates' pre-activations agree. -/
theorem cell_eq (t : Fin 16) (cc hb h ht : Mat) (z zb : Row) (W U11 U21 : Wts) (bias : Bia)
    (fhb : ∀ i, ∃ v : ℝ, hb i = (v : EReal)) (fh : ∀ i, ∃ v : ℝ, h i = (v : EReal)) (fht : ∀ i, ∃ v : ℝ, ht i = (v : EReal))
    (fz : ∀ i, ∃ v : ℝ, z i = (v : EReal)) (fW : ∀ i, ∃ v : ℝ, W i = (v : EReal)) (fU11 : ∀ i, ∃ v : ℝ, U11 i = (v : EReal))
    (fU21 : ∀ i, ∃ v : ℝ, U21 i = (v : EReal))
    (p : Fin 1024) (q : Fin 128) :
    (k0_pay14 (F := Ideal) (colTile t cc) (rowTile t z) (rowTile t zb) (k0_pay3 (colTile t hb) (colTile t ht) (colTile t h) (rowTile t z) (fused W U11 U21) (biasCol bias)) (k0_pay4 (colTile t hb) (colTile t ht) (colTile t h) (rowTile t z) (fused W U11 U21) (biasCol bias)) (k0_pay6 (colTile t hb) (colTile t ht) (colTile t h) (rowTile t z) (fused W U11 U21) (biasCol bias)) (ix2 p q) : EReal)
      = (Cert.ReferenceIdeal.Read.val_main_v62 (F := Ideal) cc hb h ht z zb W U11 U21 bias (ix2 p (col t q)) : EReal) := by
  unfold k0_pay14
  simp only [addf_apply, mulf_apply, forget_at, input_at, candidate_at, spread_at, spread'_at, oneMinus_at, oneMinus'_at, colTile_apply, rowTile_apply]
  simp only [Cert.ReferenceIdeal.Read.val_main_v62_apply, Cert.ReferenceIdeal.Read.val_main_v53_apply, Cert.ReferenceIdeal.Read.val_main_v45_apply, Cert.ReferenceIdeal.Read.val_main_v44_apply, Cert.ReferenceIdeal.Read.val_main_v43_apply, Cert.ReferenceIdeal.Read.val_main_v28_apply, Cert.ReferenceIdeal.Read.val_main_v27_apply, Cert.ReferenceIdeal.Read.val_main_cst_2_apply, Cert.ReferenceIdeal.Read.val_main_v26_apply, Cert.ReferenceIdeal.Read.val_main_v25_apply, Cert.ReferenceIdeal.Read.val_main_cst_1_apply, Cert.ReferenceIdeal.Read.val_main_v24_apply, Cert.ReferenceIdeal.Read.val_main_v23_apply, Cert.ReferenceIdeal.Read.val_main_v13_apply, Cert.ReferenceIdeal.Read.val_main_v35_apply, Cert.ReferenceIdeal.Read.val_main_v15_apply, Cert.ReferenceIdeal.Read.val_main_v52_apply, Cert.ReferenceIdeal.Read.val_main_v51_apply, Cert.ReferenceIdeal.Read.val_main_v50_apply, Cert.ReferenceIdeal.Read.val_main_v47_apply, Cert.ReferenceIdeal.Read.val_main_v46_apply, Cert.ReferenceIdeal.Read.val_main_cst_10_apply, Cert.ReferenceIdeal.Read.val_main_v49_apply, Cert.ReferenceIdeal.Read.val_main_v48_apply, Cert.ReferenceIdeal.Read.val_main_cst_11_apply, Cert.ReferenceIdeal.Read.val_main_v61_apply, Cert.ReferenceIdeal.Read.val_main_v60_apply, Cert.ReferenceIdeal.Read.val_main_v56_apply, Cert.ReferenceIdeal.Read.val_main_v55_apply, Cert.ReferenceIdeal.Read.val_main_v54_apply, Cert.ReferenceIdeal.Read.val_main_cst_12_apply, Cert.ReferenceIdeal.Read.val_main_v59_apply, Cert.ReferenceIdeal.Read.val_main_v57_apply, Cert.ReferenceIdeal.Read.val_main_v22_apply, Cert.ReferenceIdeal.Read.val_main_v21_apply, Cert.ReferenceIdeal.Read.val_main_cst_0_apply, Cert.ReferenceIdeal.Read.val_main_v20_apply, Cert.ReferenceIdeal.Read.val_main_v19_apply, Cert.ReferenceIdeal.Read.val_main_cst_apply, Cert.ReferenceIdeal.Read.val_main_v18_apply, Cert.ReferenceIdeal.Read.val_main_v17_apply, Cert.ReferenceIdeal.Read.val_main_v12_apply, Cert.ReferenceIdeal.Read.val_main_v58_apply]
  rw [gate_pre t hb h ht z W U11 U21 bias fhb fh fht fz fW fU11 fU21 (blockRow 0 p) q, gate_pre t hb h ht z W U11 U21 bias fhb fh fht fz fW fU11 fU21 (blockRow 1 p) q,
    gate_pre t hb h ht z W U11 U21 bias fhb fh fht fz fW fU11 fU21 (blockRow 3 p) q]
  have e_v44 : Cert.ReferenceIdeal.Read.idx_main_v44 (ix2 p (col t q)) = ix2 (0 : Fin 1) (col t q) := funext fun a => by
    match a with
    | ⟨0, _⟩ => rfl
    | ⟨1, _⟩ => rfl
  have e_v51 : Cert.ReferenceIdeal.Read.idx_main_v51 (ix2 p (col t q)) = ix2 (0 : Fin 1) (col t q) := funext fun a => by
    match a with
    | ⟨0, _⟩ => rfl
    | ⟨1, _⟩ => rfl
  have e_v60 : Cert.ReferenceIdeal.Read.idx_main_v60 (ix2 p (col t q)) = ix2 (0 : Fin 1) (col t q) := funext fun a => by
    match a with
    | ⟨0, _⟩ => rfl
    | ⟨1, _⟩ => rfl
  have e_v12 : Cert.ReferenceIdeal.Read.idx_main_v12 (ix2 p (col t q)) = ix2 (gateRow (blockRow 0 p)) (col t q) := funext fun a => by
    match a with
    | ⟨0, _⟩ => exact Fin.ext (by show _ = _; simp only [ix2]; omega)
    | ⟨1, _⟩ => rfl
  have e_v13 : Cert.ReferenceIdeal.Read.idx_main_v13 (ix2 p (col t q)) = ix2 (gateRow (blockRow 1 p)) (col t q) := funext fun a => by
    match a with
    | ⟨0, _⟩ => exact Fin.ext (by show _ = _; simp only [ix2]; omega)
    | ⟨1, _⟩ => rfl
  have e_v15 : Cert.ReferenceIdeal.Read.idx_main_v15 (ix2 p (col t q)) = ix2 (gateRow (blockRow 3 p)) (col t q) := funext fun a => by
    match a with
    | ⟨0, _⟩ => exact Fin.ext (by show _ = _; simp only [ix2]; omega)
    | ⟨1, _⟩ => rfl
  simp only [e_v44, e_v51, e_v60, e_v12, e_v13, e_v15, Ideal.addf_def, Ideal.mulf_def, Ideal.subf_def, Ideal.hostDivf_def,
    Ideal.hostUnary_exp_def, Ideal.hostUnary_tanh_def, Ideal.hostNegf_def, Ideal.ofBits_def, ofBits_one, Ideal.logistic]
  rfl

theorem tanhCell_at (v3 : Vec Ideal S1024x128 .f32) (v4 v5 : Vec Ideal S1x128 .f32) (v27 v28 v30 : FVec Ideal S1024x128 .f32) (i : S1024x128.Idx) :
    (k0_pay15 (F := Ideal) v3 v4 v5 v27 v28 v30 i : EReal) = Ideal.tanh (k0_pay14 (F := Ideal) v3 v4 v5 v27 v28 v30 i) := rfl

/-- The new hidden state at an entry of a tile, kernel against reference. -/
theorem hidden_eq (t : Fin 16) (cc hb h ht : Mat) (z zb : Row) (W U11 U21 : Wts) (bias : Bia)
    (fhb : ∀ i, ∃ v : ℝ, hb i = (v : EReal)) (fh : ∀ i, ∃ v : ℝ, h i = (v : EReal)) (fht : ∀ i, ∃ v : ℝ, ht i = (v : EReal))
    (fz : ∀ i, ∃ v : ℝ, z i = (v : EReal)) (fW : ∀ i, ∃ v : ℝ, W i = (v : EReal)) (fU11 : ∀ i, ∃ v : ℝ, U11 i = (v : EReal))
    (fU21 : ∀ i, ∃ v : ℝ, U21 i = (v : EReal))
    (p : Fin 1024) (q : Fin 128) :
    (k0_pay1 (F := Ideal) (k0_pay5 (colTile t hb) (colTile t ht) (colTile t h) (rowTile t z) (fused W U11 U21) (biasCol bias)) (k0_pay11 (rowTile t zb)) (k0_pay12 (rowTile t z))
        (k0_pay15 (colTile t cc) (rowTile t z) (rowTile t zb) (k0_pay3 (colTile t hb) (colTile t ht) (colTile t h) (rowTile t z) (fused W U11 U21) (biasCol bias)) (k0_pay4 (colTile t hb) (colTile t ht) (colTile t h) (rowTile t z) (fused W U11 U21) (biasCol bias)) (k0_pay6 (colTile t hb) (colTile t ht) (colTile t h) (rowTile t z) (fused W U11 U21) (biasCol bias)))
        (k0_pay16 (colTile t h) (colTile t cc) (rowTile t z) (rowTile t zb) (k0_pay3 (colTile t hb) (colTile t ht) (colTile t h) (rowTile t z) (fused W U11 U21) (biasCol bias)) (k0_pay4 (colTile t hb) (colTile t ht) (colTile t h) (rowTile t z) (fused W U11 U21) (biasCol bias)) (k0_pay5 (colTile t hb) (colTile t ht) (colTile t h) (rowTile t z) (fused W U11 U21) (biasCol bias)) (k0_pay6 (colTile t hb) (colTile t ht) (colTile t h) (rowTile t z) (fused W U11 U21) (biasCol bias))) (ix2 p q) : EReal)
      = (Cert.ReferenceIdeal.Read.val_main_v81 (F := Ideal) cc hb h ht z zb W U11 U21 bias (ix2 p (col t q)) : EReal) := by
  unfold k0_pay1 k0_pay16
  simp only [addf_apply, mulf_apply, tanhCell_at, output_at, spread_at, spread'_at, oneMinus_at, oneMinus'_at, colTile_apply, rowTile_apply]
  rw [cell_eq t cc hb h ht z zb W U11 U21 bias fhb fh fht fz fW fU11 fU21 p q]
  simp only [Cert.ReferenceIdeal.Read.val_main_v81_apply, Cert.ReferenceIdeal.Read.val_main_v74_apply, Cert.ReferenceIdeal.Read.val_main_v66_apply, Cert.ReferenceIdeal.Read.val_main_v65_apply, Cert.ReferenceIdeal.Read.val_main_v64_apply, Cert.ReferenceIdeal.Read.val_main_v34_apply, Cert.ReferenceIdeal.Read.val_main_v33_apply, Cert.ReferenceIdeal.Read.val_main_cst_4_apply, Cert.ReferenceIdeal.Read.val_main_v32_apply, Cert.ReferenceIdeal.Read.val_main_v31_apply, Cert.ReferenceIdeal.Read.val_main_cst_3_apply, Cert.ReferenceIdeal.Read.val_main_v30_apply, Cert.ReferenceIdeal.Read.val_main_v29_apply, Cert.ReferenceIdeal.Read.val_main_v14_apply, Cert.ReferenceIdeal.Read.val_main_v63_apply, Cert.ReferenceIdeal.Read.val_main_v73_apply, Cert.ReferenceIdeal.Read.val_main_v72_apply, Cert.ReferenceIdeal.Read.val_main_v71_apply, Cert.ReferenceIdeal.Read.val_main_v68_apply, Cert.ReferenceIdeal.Read.val_main_v67_apply, Cert.ReferenceIdeal.Read.val_main_cst_13_apply, Cert.ReferenceIdeal.Read.val_main_v70_apply, Cert.ReferenceIdeal.Read.val_main_v69_apply, Cert.ReferenceIdeal.Read.val_main_cst_14_apply, Cert.ReferenceIdeal.Read.val_main_v80_apply, Cert.ReferenceIdeal.Read.val_main_v79_apply, Cert.ReferenceIdeal.Read.val_main_v78_apply, Cert.ReferenceIdeal.Read.val_main_v77_apply, Cert.ReferenceIdeal.Read.val_main_v76_apply, Cert.ReferenceIdeal.Read.val_main_v75_apply, Cert.ReferenceIdeal.Read.val_main_cst_15_apply]
  rw [gate_pre t hb h ht z W U11 U21 bias fhb fh fht fz fW fU11 fU21 (blockRow 2 p) q]
  have e_v64 : Cert.ReferenceIdeal.Read.idx_main_v64 (ix2 p (col t q)) = ix2 (0 : Fin 1) (col t q) := funext fun a => by
    match a with
    | ⟨0, _⟩ => rfl
    | ⟨1, _⟩ => rfl
  have e_v72 : Cert.ReferenceIdeal.Read.idx_main_v72 (ix2 p (col t q)) = ix2 (0 : Fin 1) (col t q) := funext fun a => by
    match a with
    | ⟨0, _⟩ => rfl
    | ⟨1, _⟩ => rfl
  have e_v78 : Cert.ReferenceIdeal.Read.idx_main_v78 (ix2 p (col t q)) = ix2 (0 : Fin 1) (col t q) := funext fun a => by
    match a with
    | ⟨0, _⟩ => rfl
    | ⟨1, _⟩ => rfl
  have e_v14 : Cert.ReferenceIdeal.Read.idx_main_v14 (ix2 p (col t q)) = ix2 (gateRow (blockRow 2 p)) (col t q) := funext fun a => by
    match a with
    | ⟨0, _⟩ => exact Fin.ext (by show _ = _; simp only [ix2]; omega)
    | ⟨1, _⟩ => rfl
  simp only [e_v64, e_v72, e_v78, e_v14, Ideal.addf_def, Ideal.mulf_def, Ideal.subf_def, Ideal.hostDivf_def,
    Ideal.hostUnary_exp_def, Ideal.hostUnary_tanh_def, Ideal.hostNegf_def, Ideal.ofBits_def, ofBits_one, Ideal.logistic]
  rfl

end Cert.Bridge

end
-- ==== Proof.Boundary.lean ====
/-
  The new boundary indicator of one tile, kernel against reference, column by column.

  Both programs contract row 4096 of each weight matrix with the three states, multiply the second and third products by
  the column's indicator, add bias entry 4096 — in the same order, so the pre-activation `ρ` is one term on both sides —
  and map it to {0, 1}: the kernel as  [ clip((ρ + 1)·½) > ½ ],  the reference as  ẑ + ([ẑ > ½] − ẑ)  with
  ẑ = clip((ρ·1 + 1)/2).  At finite entries `ρ` is real, the two clipped values are one real ẑ, and the straight-through
  form collapses to the comparison.
-/
import proofs.«120162_j41540923687172_2_alg».proof.Proof.Gates
import proofs.«120162_j41540923687172_2_alg».proof.Proof.Consts

set_option maxRecDepth 16384

noncomputable section

open scoped BigOperators

namespace Cert.Bridge

open Idealize.ShloMosaic Idealize.ShloMosaic.ValueIdx Cert.KernelIdeal Cert.KernelIdeal.Gen Cert.LibERealFinite

/-- The reference's pre-activation at any of the 4097 rows: three contractions over 1024, the second and third
    multiplied by the column's boundary indicator, and the bias. -/
theorem ref_pre (hb h ht : Mat) (z : Row) (W U11 U21 : Wts) (bias : Bia) (row : Fin 4097) (b : Fin 2048) :
    (Cert.ReferenceIdeal.Read.val_main_v11 (F := Ideal) hb h ht z W U11 U21 bias (ix2 row b) : EReal)
      = ((∑ k : Fin 1024, W (ix2 row k) * hb (ix2 k b)) + z (ix2 (0 : Fin 1) b) * ∑ k : Fin 1024, U21 (ix2 row k) * ht (ix2 k b))
          + z (ix2 (0 : Fin 1) b) * (∑ k : Fin 1024, U11 (ix2 row k) * h (ix2 k b)) + bias (ix1 row) := by
  rw [Cert.ReferenceIdeal.Read.val_main_v11_apply, Cert.ReferenceIdeal.Read.val_main_v8_apply, Cert.ReferenceIdeal.Read.val_main_v7_apply,
    Cert.ReferenceIdeal.Read.val_main_v0_apply, Cert.ReferenceIdeal.Read.val_main_v3_apply, Cert.ReferenceIdeal.Read.val_main_v2_apply,
    Cert.ReferenceIdeal.Read.val_main_v1_apply, Cert.ReferenceIdeal.Read.val_main_v6_apply, Cert.ReferenceIdeal.Read.val_main_v5_apply,
    Cert.ReferenceIdeal.Read.val_main_v4_apply, Cert.ReferenceIdeal.Read.val_main_v10_apply, Cert.ReferenceIdeal.Read.val_main_v9_apply]
  have eL0 : ∀ k, Cert.ReferenceIdeal.Read.lidx_main_v0 (ix2 row b) k = ix2 row k := fun k => funext fun a => by
    match a with
    | ⟨0, _⟩ => rfl
    | ⟨1, _⟩ => rfl
  have eR0 : ∀ k, Cert.ReferenceIdeal.Read.ridx_main_v0 (ix2 row b) k = ix2 k b := fun k => funext fun a => by
    match a with
    | ⟨0, _⟩ => rfl
    | ⟨1, _⟩ => rfl
  have eL1 : ∀ k, Cert.ReferenceIdeal.Read.lidx_main_v1 (ix2 row b) k = ix2 row k := fun k => funext fun a => by
    match a with
    | ⟨0, _⟩ => rfl
    | ⟨1, _⟩ => rfl
  have eR1 : ∀ k, Cert.ReferenceIdeal.Read.ridx_main_v1 (ix2 row b) k = ix2 k b := fun k => funext fun a => by
    match a with
    | ⟨0, _⟩ => rfl
    | ⟨1, _⟩ => rfl
  have eL4 : ∀ k, Cert.ReferenceIdeal.Read.lidx_main_v4 (ix2 row b) k = ix2 row k := fun k => funext fun a => by
    match a with
    | ⟨0, _⟩ => rfl
    | ⟨1, _⟩ => rfl
  have eR4 : ∀ k, Cert.ReferenceIdeal.Read.ridx_main_v4 (ix2 row b) k = ix2 k b := fun k => funext fun a => by
    match a with
    | ⟨0, _⟩ => rfl
    | ⟨1, _⟩ => rfl
  have eZ2 : Cert.ReferenceIdeal.Read.idx_main_v2 (ix2 row b) = ix2 (0 : Fin 1) b := funext fun a => by
    match a with
    | ⟨0, _⟩ => rfl
    | ⟨1, _⟩ => rfl
  have eZ5 : Cert.ReferenceIdeal.Read.idx_main_v5 (ix2 row b) = ix2 (0 : Fin 1) b := funext fun a => by
    match a with
    | ⟨0, _⟩ => rfl
    | ⟨1, _⟩ => rfl
  have eB : Cert.ReferenceIdeal.Read.idx_main_v9 (Cert.ReferenceIdeal.Read.idx_main_v10 (ix2 row b)) = ix1 row := funext fun a => by
    match a with
    | ⟨0, _⟩ => rfl
  simp only [eL0, eR0, eL1, eR1, eL4, eR4, eZ2, eZ5, eB, Ideal.addf_def, Ideal.mulf_def]

/-- At finite entries a pre-activation is a real number. -/
theorem pre_real (hb h ht : Mat) (z : Row) (W U11 U21 : Wts) (bias : Bia)
    (fhb : ∀ i, ∃ v : ℝ, hb i = (v : EReal)) (fh : ∀ i, ∃ v : ℝ, h i = (v : EReal)) (fht : ∀ i, ∃ v : ℝ, ht i = (v : EReal))
    (fz : ∀ i, ∃ v : ℝ, z i = (v : EReal)) (fW : ∀ i, ∃ v : ℝ, W i = (v : EReal)) (fU11 : ∀ i, ∃ v : ℝ, U11 i = (v : EReal))
    (fU21 : ∀ i, ∃ v : ℝ, U21 i = (v : EReal)) (fbias : ∀ i, ∃ v : ℝ, bias i = (v : EReal))
    (row : Fin 4097) (b : Fin 2048) :
    ∃ ρ : ℝ, (Cert.ReferenceIdeal.Read.val_main_v11 (F := Ideal) hb h ht z W U11 U21 bias (ix2 row b) : EReal) = (ρ : EReal) := by
  choose w hw using fW
  choose u hu using fU11
  choose v hv using fU21
  choose x hx using fhb
  choose y hy using fh
  choose y' hy' using fht
  choose ζ hζ using fz
  choose β hβ using fbias
  refine ⟨((∑ k : Fin 1024, w (ix2 row k) * x (ix2 k b)) + ζ (ix2 (0 : Fin 1) b) * ∑ k : Fin 1024, v (ix2 row k) * y' (ix2 k b))
          + ζ (ix2 (0 : Fin 1) b) * (∑ k : Fin 1024, u (ix2 row k) * y (ix2 k b)) + β (ix1 row), ?_⟩
  rw [ref_pre]
  simp only [hw, hu, hv, hx, hy, hy', hζ, hβ, EReal.coe_add, EReal.coe_mul, coe_sum]

/-- THE BOUNDARY INDICATOR at a real pre-activation `ρ`.  The kernel clips `(ρ + 1) · ½` to [0, 1], compares with ½ and
    returns the comparison as 0 or 1; the reference clips `(ρ · 1 + 1) / 2`, compares, and returns
    `ẑ + (hard − ẑ)` (the straight-through form).  The two clipped values are one real number `ẑ`, and
    `ẑ + (hard − ẑ) = hard` because `ẑ` is finite. -/
theorem threshold_eq (ρ : ℝ) :
    (FloatOps.sitofp (F := Ideal) .f32 (BitVec.setWidth 32 (FloatOps.cmpf (F := Ideal) (φ := .f32) .ogt
        (min (1 : EReal) (max 0 (((ρ : EReal) + 1) * ((1 / 2 : ℝ) : EReal)))) ((1 / 2 : ℝ) : EReal))) : EReal)
      = min (1 : EReal) (max 0 (Ideal.div ((ρ : EReal) * 1 + 1) ((2 : ℝ) : EReal)))
        + (FloatOps.uitofp (F := Ideal) .f32 (FloatOps.cmpf (F := Ideal) (φ := .f32) .ogt
              (min (1 : EReal) (max 0 (Ideal.div ((ρ : EReal) * 1 + 1) ((2 : ℝ) : EReal)))) ((1 / 2 : ℝ) : EReal))
            - min (1 : EReal) (max 0 (Ideal.div ((ρ : EReal) * 1 + 1) ((2 : ℝ) : EReal)))) := by
  have hdiv : Ideal.div ((ρ : EReal) * 1 + 1) ((2 : ℝ) : EReal) = (((ρ + 1) * (1 / 2) : ℝ) : EReal) := by
    rw [Ideal.div_coe (by norm_num : (2 : ℝ) ≠ 0), mul_one, ← EReal.coe_one, ← EReal.coe_add, ← EReal.coe_mul]
  have hk : ((ρ : EReal) + 1) * ((1 / 2 : ℝ) : EReal) = (((ρ + 1) * (1 / 2) : ℝ) : EReal) := by
    rw [← EReal.coe_one, ← EReal.coe_add, ← EReal.coe_mul]
  have hs : ∀ s : ℝ, min (1 : EReal) (max 0 (s : EReal)) = ((min 1 (max 0 s) : ℝ) : EReal) := fun s => by
    have mono : Monotone ((↑) : ℝ → EReal) := EReal.coe_strictMono.monotone
    rw [mono.map_min, mono.map_max, EReal.coe_one, EReal.coe_zero]
  rw [hdiv, hk, hs]
  generalize (min 1 (max 0 ((ρ + 1) * (1 / 2))) : ℝ) = s
  generalize FloatOps.cmpf (F := Ideal) (φ := .f32) .ogt (s : EReal) ((1 / 2 : ℝ) : EReal) = c
  have hc : c = 0#1 ∨ c = 1#1 := by revert c; decide
  rcases hc with rfl | rfl
  · show (((BitVec.setWidth 32 (0#1 : BitVec 1)).toInt : ℝ) : EReal) = (s : EReal) + ((((0#1 : BitVec 1).toNat : ℝ) : EReal) - (s : EReal))
    rw [show (BitVec.setWidth 32 (0#1 : BitVec 1)).toInt = 0 from by decide, show (0#1 : BitVec 1).toNat = 0 from by decide,
      ← EReal.coe_sub, ← EReal.coe_add]
    congr 1; push_cast; ring
  · show (((BitVec.setWidth 32 (1#1 : BitVec 1)).toInt : ℝ) : EReal) = (s : EReal) + ((((1#1 : BitVec 1).toNat : ℝ) : EReal) - (s : EReal))
    rw [show (BitVec.setWidth 32 (1#1 : BitVec 1)).toInt = 1 from by decide, show (1#1 : BitVec 1).toNat = 1 from by decide,
      ← EReal.coe_sub, ← EReal.coe_add]
    congr 1; push_cast; ring

/-- The new boundary indicator at a column of a tile, kernel against reference. -/
theorem boundary_eq (t : Fin 16) (hb h ht : Mat) (z : Row) (W U11 U21 : Wts) (bias : Bia)
    (fhb : ∀ i, ∃ v : ℝ, hb i = (v : EReal)) (fh : ∀ i, ∃ v : ℝ, h i = (v : EReal)) (fht : ∀ i, ∃ v : ℝ, ht i = (v : EReal))
    (fz : ∀ i, ∃ v : ℝ, z i = (v : EReal)) (fW : ∀ i, ∃ v : ℝ, W i = (v : EReal)) (fU11 : ∀ i, ∃ v : ℝ, U11 i = (v : EReal))
    (fU21 : ∀ i, ∃ v : ℝ, U21 i = (v : EReal)) (fbias : ∀ i, ∃ v : ℝ, bias i = (v : EReal))
    (q : Fin 128) :
    (k0_pay9 (F := Ideal) (colTile t ht) (colTile t h) (rowTile t z) (k0_pay7 (colTile t hb) (boundaryRow W)) (k0_pay8 (boundaryRow U21))
        (constant S1x128 .f32 0x00000000#32) (boundaryRow U11) (boundaryBias bias) (ix2 (0 : Fin 1) q) : EReal)
      = (Cert.ReferenceIdeal.Read.val_main_v86 (F := Ideal) hb h ht z W U11 U21 bias (ix2 (0 : Fin 1) (col t q)) : EReal) := by
  obtain ⟨ρ, hρ⟩ := pre_real hb h ht z W U11 U21 bias fhb fh fht fz fW fU11 fU21 fbias lastRow (col t q)
  unfold k0_pay9 k0_pay7 k0_pay8
  simp only [sitofp_apply, extui_apply, cmpf_apply, minimumf_apply, maximumf_apply, mulf_apply, addf_apply, broadcast_apply]
  simp only [Cert.ReferenceIdeal.Read.val_main_v86_apply, Cert.ReferenceIdeal.Read.val_main_v85_apply, Cert.ReferenceIdeal.Read.val_main_v84_apply, Cert.ReferenceIdeal.Read.val_main_v83_apply, Cert.ReferenceIdeal.Read.val_main_v82_apply, Cert.ReferenceIdeal.Read.val_main_cst_16_apply, Cert.ReferenceIdeal.Read.val_main_v42_apply, Cert.ReferenceIdeal.Read.val_main_call0_v4_apply, Cert.ReferenceIdeal.Read.val_main_call0_v3_apply, Cert.ReferenceIdeal.Read.val_main_cst_9_apply, Cert.ReferenceIdeal.Read.val_main_call0_v2_apply, Cert.ReferenceIdeal.Read.val_main_call0_v1_apply, Cert.ReferenceIdeal.Read.val_main_call0_v0_apply, Cert.ReferenceIdeal.Read.val_main_cst_8_apply, Cert.ReferenceIdeal.Read.val_main_v41_apply, Cert.ReferenceIdeal.Read.val_main_v40_apply, Cert.ReferenceIdeal.Read.val_main_cst_7_apply, Cert.ReferenceIdeal.Read.val_main_v39_apply, Cert.ReferenceIdeal.Read.val_main_v38_apply, Cert.ReferenceIdeal.Read.val_main_cst_6_apply, Cert.ReferenceIdeal.Read.val_main_v37_apply, Cert.ReferenceIdeal.Read.val_main_v36_apply, Cert.ReferenceIdeal.Read.val_main_cst_5_apply, Cert.ReferenceIdeal.Read.val_main_v16_apply]
  have e16 : Cert.ReferenceIdeal.Read.idx_main_v16 (ix2 (0 : Fin 1) (col t q)) = ix2 lastRow (col t q) := funext fun a => by
    match a with
    | ⟨0, _⟩ => rfl
    | ⟨1, _⟩ => rfl
  have hd : dot_S1x1024_S1024x128_S1x128_1_0_0_1_n_n = DotDims.plain 1 1024 128 := rfl
  rw [hd, matmul_plain_zero_apply, matmul_plain_zero_apply, matmul_plain_zero_apply, Cert.LibColumnBroadcast.broadcastTo_a1_ab_apply]
  simp only [shapeCast_self, boundaryRow_apply, boundaryBias_apply, colTile_apply, rowTile_apply]
  rw [← ref_pre hb h ht z W U11 U21 bias lastRow (col t q), e16, hρ]
  simp only [Ideal.ofBits_def, ofBits_one, ofBits_half, ofBits_two, Ideal.ofBits_zero_f32, Ideal.addf_def, Ideal.mulf_def, Ideal.subf_def,
    Ideal.hostDivf_def, Ideal.minimumf_def, Ideal.maximumf_def]
  exact threshold_eq ρ

end Cert.Bridge

end
-- ==== Proof.LibNaryThree.lean ====
/-
  A host operation of three operands named by a literal family `![x, a, b]` (a concatenation of three arrays), read at
  its result buffer: its function applied to the three operands' contents, EACH AT ITS OWN REFERENCE.  Stated with the
  contents as `Fin.cons …` of the three, in place of `fun k => F ↑(![x, a, b] k)`: under that binder the reference is no
  literal, so the operands' own contents could not be rewritten further; here they can.  (The three-operand companion
  of the library's four-operand form.)
-/
import Idealize.ShloMosaic.Lib.StableHlo.Run

noncomputable section

namespace Idealize.ShloMosaic.StableHlo

variable {τ : Topo} {sig : RefSig} {Val : EltTy → Type} {x a b y : Ref sig .tc}

/-- The result of a three-operand host operation, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same for one `simp` pass: the result reference un-indexed, as in the library's primed result lemmas. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.Tile.lean ====
/-
  From tiles to whole arrays: the idealized kernel's run with each result array named.

  The launch finds, besides the ten arguments, the host lines' results: the 4096 gate rows of the three weight matrices
  side by side, the first 4096 bias entries as a column, row 4096 of each weight matrix, and bias entry 4096.  At tile `t`
  the six resident windows hold these whole and the six moving windows hold columns `128·t … 128·t + 127` of the lower, own
  and upper states, the cell state and the two indicator rows.  So what tile `t` writes back is, entry by entry, the
  reference's new hidden state, new cell state and new boundary indicator at those columns (the three entry-wise
  equations); the sixteen tiles' blocks cover each result array; hence each result array ends at the reference's stage of
  the arguments, as one whole-array function.
-/
import proofs.«120162_j41540923687172_2_alg».proof.Proof.FrameIdeal
import proofs.«120162_j41540923687172_2_alg».proof.Proof.Gates
import proofs.«120162_j41540923687172_2_alg».proof.Proof.Cell
import proofs.«120162_j41540923687172_2_alg».proof.Proof.Boundary
import proofs.«120162_j41540923687172_2_alg».proof.Proof.LibNaryThree
import proofs.«120162_j41540923687172_2_alg».proof.Proof.Gen.ReferenceIdeal.Read
import Idealize.ShloMosaic.Lib.StableHlo.Run
import Idealize.ShloMosaic.Lib.Pipeline.Value
import Idealize.ShloMosaic.PureOps.Ideal

set_option maxRecDepth 16384

noncomputable section

namespace Cert.KernelIdeal.Entry

open Idealize.ShloMosaic Idealize.ShloMosaic.TcCoe Idealize.SL.Sem Idealize.ShloMosaic.StableHlo
open Cert.KernelIdeal Cert.KernelIdeal.Gen Cert.KernelIdeal.Frame Cert.Bridge

variable (m : (ℓ : Loc nD τ sig) → Buf (Elt Ideal) ℓ) (c : Dev nD)

/-! ## What the host lines hand the launch -/

theorem weights : (atEntry m c main_v11 : S4096x3072.Idx → EReal)
    = fused (m ((c : Thread nD τ).loc main_arg6)) (m ((c : Thread nD τ).loc main_arg7)) (m ((c : Thread nD τ).loc main_arg8)) := by
  dsimp only [atEntry, hostOps0]
  simp (disch := decide) only [after_cons, after_nil, unary_result', reshape_result', nary3_result', unary_result_ne', reshape_result_ne', nary_result_ne']
  rfl

theorem biasColumn : (atEntry m c main_v4 : S4096x1.Idx → EReal) = biasCol (m ((c : Thread nD τ).loc main_arg9)) := by
  dsimp only [atEntry, hostOps0]
  after_results
  rfl

theorem lowerRow : (atEntry m c main_v5 : S1x1024.Idx → EReal) = boundaryRow (m ((c : Thread nD τ).loc main_arg6)) := by
  dsimp only [atEntry, hostOps0]
  after_results
  rfl
theorem ownRow : (atEntry m c main_v6 : S1x1024.Idx → EReal) = boundaryRow (m ((c : Thread nD τ).loc main_arg7)) := by
  dsimp only [atEntry, hostOps0]
  after_results
  rfl
theorem upperRow : (atEntry m c main_v7 : S1x1024.Idx → EReal) = boundaryRow (m ((c : Thread nD τ).loc main_arg8)) := by
  dsimp only [atEntry, hostOps0]
  after_results
  rfl
theorem biasCell : (atEntry m c main_v9 : S1x1.Idx → EReal) = boundaryBias (m ((c : Thread nD τ).loc main_arg9)) := by
  dsimp only [atEntry, hostOps0]
  after_results
  rfl

end Cert.KernelIdeal.Entry

namespace Cert.KernelIdeal.Tile

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frame Cert.Bridge

variable (m : (ℓ : Loc nD τ sig) → Buf (Elt Ideal) ℓ) (ρ : Dev nD → PrngReg)

theorem zero_offsets : (![0, 0] : Fin 2 → Nat) = fun _ => 0 := funext fun a => by fin_cases a <;> rfl

/-- A grid point as one of the sixteen tiles. -/
def tile (t : Fin cfg0.N) : Fin 16 := ⟨t.val, by have h := t.isLt; have hN : cfg0.N = 16 := N_0; omega⟩

/-! ## The printed index maps, decided over the grid: a resident window's block is always block (0, 0); a moving
    window's block at tile `t` is block (0, t). -/
theorem index_0 : ∀ t : Fin cfg0.N, ∀ a : Fin 2, win0_0.index t a = 0 :=
  (by decide +kernel : ∀ t : Fin grid0.N, ∀ a : Fin 2, win0_0.index t a = 0)
theorem index_1 : ∀ t : Fin cfg0.N, ∀ a : Fin 2, win0_1.index t a = 0 :=
  (by decide +kernel : ∀ t : Fin grid0.N, ∀ a : Fin 2, win0_1.index t a = 0)
theorem index_2 : ∀ t : Fin cfg0.N, ∀ a : Fin 2, win0_2.index t a = 0 :=
  (by decide +kernel : ∀ t : Fin grid0.N, ∀ a : Fin 2, win0_2.index t a = 0)
theorem index_3 : ∀ t : Fin cfg0.N, ∀ a : Fin 2, win0_3.index t a = 0 :=
  (by decide +kernel : ∀ t : Fin grid0.N, ∀ a : Fin 2, win0_3.index t a = 0)
theorem index_4 : ∀ t : Fin cfg0.N, ∀ a : Fin 2, win0_4.index t a = 0 :=
  (by decide +kernel : ∀ t : Fin grid0.N, ∀ a : Fin 2, win0_4.index t a = 0)
theorem index_5 : ∀ t : Fin cfg0.N, ∀ a : Fin 2, win0_5.index t a = 0 :=
  (by decide +kernel : ∀ t : Fin grid0.N, ∀ a : Fin 2, win0_5.index t a = 0)
theorem index_6 : ∀ t : Fin cfg0.N, win0_6.index t (0 : Fin 2) = 0 ∧ win0_6.index t (1 : Fin 2) = t.val :=
  (by decide +kernel : ∀ t : Fin grid0.N, win0_6.index t (0 : Fin 2) = 0 ∧ win0_6.index t (1 : Fin 2) = t.val)
theorem index_7 : ∀ t : Fin cfg0.N, win0_7.index t (0 : Fin 2) = 0 ∧ win0_7.index t (1 : Fin 2) = t.val :=
  (by decide +kernel : ∀ t : Fin grid0.N, win0_7.index t (0 : Fin 2) = 0 ∧ win0_7.index t (1 : Fin 2) = t.val)
theorem index_8 : ∀ t : Fin cfg0.N, win0_8.index t (0 : Fin 2) = 0 ∧ win0_8.index t (1 : Fin 2) = t.val :=
  (by decide +kernel : ∀ t : Fin grid0.N, win0_8.index t (0 : Fin 2) = 0 ∧ win0_8.index t (1 : Fin 2) = t.val)
theorem index_9 : ∀ t : Fin cfg0.N, win0_9.index t (0 : Fin 2) = 0 ∧ win0_9.index t (1 : Fin 2) = t.val :=
  (by decide +kernel : ∀ t : Fin grid0.N, win0_9.index t (0 : Fin 2) = 0 ∧ win0_9.index t (1 : Fin 2) = t.val)
theorem index_10 : ∀ t : Fin cfg0.N, win0_10.index t (0 : Fin 2) = 0 ∧ win0_10.index t (1 : Fin 2) = t.val :=
  (by decide +kernel : ∀ t : Fin grid0.N, win0_10.index t (0 : Fin 2) = 0 ∧ win0_10.index t (1 : Fin 2) = t.val)
theorem index_11 : ∀ t : Fin cfg0.N, win0_11.index t (0 : Fin 2) = 0 ∧ win0_11.index t (1 : Fin 2) = t.val :=
  (by decide +kernel : ∀ t : Fin grid0.N, win0_11.index t (0 : Fin 2) = 0 ∧ win0_11.index t (1 : Fin 2) = t.val)
theorem index_12 : ∀ t : Fin cfg0.N, win0_12.index t (0 : Fin 2) = 0 ∧ win0_12.index t (1 : Fin 2) = t.val :=
  (by decide +kernel : ∀ t : Fin grid0.N, win0_12.index t (0 : Fin 2) = 0 ∧ win0_12.index t (1 : Fin 2) = t.val)
theorem index_13 : ∀ t : Fin cfg0.N, win0_13.index t (0 : Fin 2) = 0 ∧ win0_13.index t (1 : Fin 2) = t.val :=
  (by decide +kernel : ∀ t : Fin grid0.N, win0_13.index t (0 : Fin 2) = 0 ∧ win0_13.index t (1 : Fin 2) = t.val)
theorem index_14 : ∀ t : Fin cfg0.N, win0_14.index t (0 : Fin 2) = 0 ∧ win0_14.index t (1 : Fin 2) = t.val :=
  (by decide +kernel : ∀ t : Fin grid0.N, win0_14.index t (0 : Fin 2) = 0 ∧ win0_14.index t (1 : Fin 2) = t.val)

/-! ## The input blocks at a tile -/
theorem block_0 (c : Dev nD) (t : Fin cfg0.N) : (blockAt m c 0 t : S4096x3072.Idx → EReal) = fused (m ((c : Thread nD τ).loc main_arg6)) (m ((c : Thread nD τ).loc main_arg7)) (m ((c : Thread nD τ).loc main_arg8)) := by
  rw [← Entry.weights m c]
  funext j
  show atEntry m c main_v11 (((cfg0.win 0).blk t).view.emb j) = atEntry m c main_v11 j
  congr 1
  funext a; apply Fin.ext
  have e := index_0 t
  match a with
  | ⟨0, _⟩ => show win0_0.index t (0 : Fin 2) * 4096 + 1 * (j 0).val = (j 0).val; rw [e 0]; omega
  | ⟨1, _⟩ => show win0_0.index t (1 : Fin 2) * 3072 + 1 * (j 1).val = (j 1).val; rw [e 1]; omega
theorem block_1 (c : Dev nD) (t : Fin cfg0.N) : (blockAt m c 1 t : S4096x1.Idx → EReal) = biasCol (m ((c : Thread nD τ).loc main_arg9)) := by
  rw [← Entry.biasColumn m c]
  funext j
  show atEntry m c main_v4 (((cfg0.win 1).blk t).view.emb j) = atEntry m c main_v4 j
  congr 1
  funext a; apply Fin.ext
  have e := index_1 t
  match a with
  | ⟨0, _⟩ => show win0_1.index t (0 : Fin 2) * 4096 + 1 * (j 0).val = (j 0).val; rw [e 0]; omega
  | ⟨1, _⟩ => show win0_1.index t (1 : Fin 2) * 1 + 1 * (j 1).val = (j 1).val; rw [e 1]; omega
theorem block_2 (c : Dev nD) (t : Fin cfg0.N) : (blockAt m c 2 t : S1x1024.Idx → EReal) = boundaryRow (m ((c : Thread nD τ).loc main_arg6)) := by
  rw [← Entry.lowerRow m c]
  funext j
  show atEntry m c main_v5 (((cfg0.win 2).blk t).view.emb j) = atEntry m c main_v5 j
  congr 1
  funext a; apply Fin.ext
  have e := index_2 t
  match a with
  | ⟨0, _⟩ => show win0_2.index t (0 : Fin 2) * 1 + 1 * (j 0).val = (j 0).val; rw [e 0]; omega
  | ⟨1, _⟩ => show win0_2.index t (1 : Fin 2) * 1024 + 1 * (j 1).val = (j 1).val; rw [e 1]; omega
theorem block_3 (c : Dev nD) (t : Fin cfg0.N) : (blockAt m c 3 t : S1x1024.Idx → EReal) = boundaryRow (m ((c : Thread nD τ).loc main_arg7)) := by
  rw [← Entry.ownRow m c]
  funext j
  show atEntry m c main_v6 (((cfg0.win 3).blk t).view.emb j) = atEntry m c main_v6 j
  congr 1
  funext a; apply Fin.ext
  have e := index_3 t
  match a with
  | ⟨0, _⟩ => show win0_3.index t (0 : Fin 2) * 1 + 1 * (j 0).val = (j 0).val; rw [e 0]; omega
  | ⟨1, _⟩ => show win0_3.index t (1 : Fin 2) * 1024 + 1 * (j 1).val = (j 1).val; rw [e 1]; omega
theorem block_4 (c : Dev nD) (t : Fin cfg0.N) : (blockAt m c 4 t : S1x1024.Idx → EReal) = boundaryRow (m ((c : Thread nD τ).loc main_arg8)) := by
  rw [← Entry.upperRow m c]
  funext j
  show atEntry m c main_v7 (((cfg0.win 4).blk t).view.emb j) = atEntry m c main_v7 j
  congr 1
  funext a; apply Fin.ext
  have e := index_4 t
  match a with
  | ⟨0, _⟩ => show win0_4.index t (0 : Fin 2) * 1 + 1 * (j 0).val = (j 0).val; rw [e 0]; omega
  | ⟨1, _⟩ => show win0_4.index t (1 : Fin 2) * 1024 + 1 * (j 1).val = (j 1).val; rw [e 1]; omega
theorem block_5 (c : Dev nD) (t : Fin cfg0.N) : (blockAt m c 5 t : S1x1.Idx → EReal) = boundaryBias (m ((c : Thread nD τ).loc main_arg9)) := by
  rw [← Entry.biasCell m c]
  funext j
  show atEntry m c main_v9 (((cfg0.win 5).blk t).view.emb j) = atEntry m c main_v9 j
  congr 1
  funext a; apply Fin.ext
  have e := index_5 t
  match a with
  | ⟨0, _⟩ => show win0_5.index t (0 : Fin 2) * 1 + 1 * (j 0).val = (j 0).val; rw [e 0]; omega
  | ⟨1, _⟩ => show win0_5.index t (1 : Fin 2) * 1 + 1 * (j 1).val = (j 1).val; rw [e 1]; omega
theorem block_6 (c : Dev nD) (t : Fin cfg0.N) : (blockAt m c 6 t : S1024x128.Idx → EReal) = colTile (tile t) (m ((c : Thread nD τ).loc main_arg1)) := by
  rw [← atEntry_arg1 m c]
  funext j
  show atEntry m c main_arg1 (((cfg0.win 6).blk t).view.emb j) = atEntry m c main_arg1 _
  congr 1
  funext a; apply Fin.ext
  obtain ⟨e0, e1⟩ := index_6 t
  match a with
  | ⟨0, _⟩ => show win0_6.index t (0 : Fin 2) * 1024 + 1 * (j 0).val = (j 0).val; rw [e0]; omega
  | ⟨1, _⟩ => show win0_6.index t (1 : Fin 2) * 128 + 1 * (j 1).val = t.val * 128 + (j 1).val; rw [e1]; omega
theorem block_7 (c : Dev nD) (t : Fin cfg0.N) : (blockAt m c 7 t : S1024x128.Idx → EReal) = colTile (tile t) (m ((c : Thread nD τ).loc main_arg2)) := by
  rw [← atEntry_arg2 m c]
  funext j
  show atEntry m c main_arg2 (((cfg0.win 7).blk t).view.emb j) = atEntry m c main_arg2 _
  congr 1
  funext a; apply Fin.ext
  obtain ⟨e0, e1⟩ := index_7 t
  match a with
  | ⟨0, _⟩ => show win0_7.index t (0 : Fin 2) * 1024 + 1 * (j 0).val = (j 0).val; rw [e0]; omega
  | ⟨1, _⟩ => show win0_7.index t (1 : Fin 2) * 128 + 1 * (j 1).val = t.val * 128 + (j 1).val; rw [e1]; omega
theorem block_8 (c : Dev nD) (t : Fin cfg0.N) : (blockAt m c 8 t : S1024x128.Idx → EReal) = colTile (tile t) (m ((c : Thread nD τ).loc main_arg3)) := by
  rw [← atEntry_arg3 m c]
  funext j
  show atEntry m c main_arg3 (((cfg0.win 8).blk t).view.emb j) = atEntry m c main_arg3 _
  congr 1
  funext a; apply Fin.ext
  obtain ⟨e0, e1⟩ := index_8 t
  match a with
  | ⟨0, _⟩ => show win0_8.index t (0 : Fin 2) * 1024 + 1 * (j 0).val = (j 0).val; rw [e0]; omega
  | ⟨1, _⟩ => show win0_8.index t (1 : Fin 2) * 128 + 1 * (j 1).val = t.val * 128 + (j 1).val; rw [e1]; omega
theorem block_9 (c : Dev nD) (t : Fin cfg0.N) : (blockAt m c 9 t : S1024x128.Idx → EReal) = colTile (tile t) (m ((c : Thread nD τ).loc main_arg0)) := by
  rw [← atEntry_arg0 m c]
  funext j
  show atEntry m c main_arg0 (((cfg0.win 9).blk t).view.emb j) = atEntry m c main_arg0 _
  congr 1
  funext a; apply Fin.ext
  obtain ⟨e0, e1⟩ := index_9 t
  match a with
  | ⟨0, _⟩ => show win0_9.index t (0 : Fin 2) * 1024 + 1 * (j 0).val = (j 0).val; rw [e0]; omega
  | ⟨1, _⟩ => show win0_9.index t (1 : Fin 2) * 128 + 1 * (j 1).val = t.val * 128 + (j 1).val; rw [e1]; omega
theorem block_10 (c : Dev nD) (t : Fin cfg0.N) : (blockAt m c 10 t : S1x128.Idx → EReal) = rowTile (tile t) (m ((c : Thread nD τ).loc main_arg4)) := by
  rw [← atEntry_arg4 m c]
  funext j
  show atEntry m c main_arg4 (((cfg0.win 10).blk t).view.emb j) = atEntry m c main_arg4 _
  congr 1
  funext a; apply Fin.ext
  obtain ⟨e0, e1⟩ := index_10 t
  match a with
  | ⟨0, _⟩ => show win0_10.index t (0 : Fin 2) * 1 + 1 * (j 0).val = (j 0).val; rw [e0]; omega
  | ⟨1, _⟩ => show win0_10.index t (1 : Fin 2) * 128 + 1 * (j 1).val = t.val * 128 + (j 1).val; rw [e1]; omega
theorem block_11 (c : Dev nD) (t : Fin cfg0.N) : (blockAt m c 11 t : S1x128.Idx → EReal) = rowTile (tile t) (m ((c : Thread nD τ).loc main_arg5)) := by
  rw [← atEntry_arg5 m c]
  funext j
  show atEntry m c main_arg5 (((cfg0.win 11).blk t).view.emb j) = atEntry m c main_arg5 _
  congr 1
  funext a; apply Fin.ext
  obtain ⟨e0, e1⟩ := index_11 t
  match a with
  | ⟨0, _⟩ => show win0_11.index t (0 : Fin 2) * 1 + 1 * (j 0).val = (j 0).val; rw [e0]; omega
  | ⟨1, _⟩ => show win0_11.index t (1 : Fin 2) * 128 + 1 * (j 1).val = t.val * 128 + (j 1).val; rw [e1]; omega

/-! ## The three result arrays -/

/-- What tile `t` writes back into the hidden array is block `t` of the reference's stage of the arguments. -/
theorem written_12 (hfin : ∀ c : Dev nD, (∀ i, ∃ v : ℝ, (m ((c : Thread nD τ).loc main_arg0)) i = (v : EReal)) ∧ (∀ i, ∃ v : ℝ, (m ((c : Thread nD τ).loc main_arg1)) i = (v : EReal)) ∧ (∀ i, ∃ v : ℝ, (m ((c : Thread nD τ).loc main_arg2)) i = (v : EReal))
      ∧ (∀ i, ∃ v : ℝ, (m ((c : Thread nD τ).loc main_arg3)) i = (v : EReal)) ∧ (∀ i, ∃ v : ℝ, (m ((c : Thread nD τ).loc main_arg4)) i = (v : EReal)) ∧ (∀ i, ∃ v : ℝ, (m ((c : Thread nD τ).loc main_arg5)) i = (v : EReal))
      ∧ (∀ i, ∃ v : ℝ, (m ((c : Thread nD τ).loc main_arg6)) i = (v : EReal)) ∧ (∀ i, ∃ v : ℝ, (m ((c : Thread nD τ).loc main_arg7)) i = (v : EReal)) ∧ (∀ i, ∃ v : ℝ, (m ((c : Thread nD τ).loc main_arg8)) i = (v : EReal))
      ∧ (∀ i, ∃ v : ℝ, (m ((c : Thread nD τ).loc main_arg9)) i = (v : EReal))) (c : Dev nD) (t : Fin cfg0.N) :
    (dats m 0 c).flushed 12 t = ((cfg0.win 12).blk t).view.read (Elt Ideal) (Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  obtain ⟨f0, f1, f2, f3, f4, f5, f6, f7, f8, f9⟩ := hfin c
  show (cfg0.win 12).cut (grid0.coords t) ((dats m 0 c).after 12 t) = _
  rw [after_12]
  unfold hiddenOut hiddenValue outputGate forgetGate inputGate candidate
  rw [View.canon_unit_zero zero_offsets]
  simp only [View.ld_unit_zero (S := S1024x128) zero_offsets, View.ld_unit_zero (S := S1x128) zero_offsets, View.ld_unit_zero (S := S4096x3072) zero_offsets, View.ld_unit_zero (S := S4096x1) zero_offsets, View.ld_unit_zero (S := S1x1024) zero_offsets, View.ld_unit_zero (S := S1x1) zero_offsets]
  rw [block_0 m c t, block_1 m c t, block_6 m c t, block_7 m c t, block_8 m c t, block_9 m c t, block_10 m c t, block_11 m c t]
  funext j
  obtain ⟨p, q, rfl⟩ : ∃ (p : Fin 1024) (q : Fin 128), j = ix2 p q := ⟨j 0, j 1, eq_ix2 j⟩
  refine (hidden_eq (tile t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) f1 f2 f3 f4 f6 f7 f8 p q).trans ?_
  show Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) _ = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 12).blk t).view.emb (ix2 p q))
  congr 1
  funext a; apply Fin.ext
  obtain ⟨e0, e1⟩ := index_12 t
  match a with
  | ⟨0, _⟩ => show p.val = win0_12.index t (0 : Fin 2) * 1024 + 1 * p.val; rw [e0]; omega
  | ⟨1, _⟩ => show t.val * 128 + q.val = win0_12.index t (1 : Fin 2) * 128 + 1 * q.val; rw [e1]; omega

/-- An index of the hidden array is in tile `t`'s block iff each coordinate is in the block's range. -/
theorem mem_block_12 (t : Fin cfg0.N) (i : S1024x2048.Idx) :
    i ∈ ((cfg0.win 12).blk t).view.set ↔ ∀ a : Fin 2, win0_12.index t a * S1024x128.size a ≤ (i a).val ∧ (i a).val < win0_12.index t a * S1024x128.size a + S1024x128.size a := by
  show i ∈ ((View.whole main_v12_0).slice (win0_12.rect t)).set ↔ _
  rw [View.set_slice_whole, Rect.mem_set_unit]
  exact Iff.rfl

/-- Every index of the hidden array lies in the block of the tile its column falls in. -/
theorem covered_12 (i : S1024x2048.Idx) : ∃ t : Fin cfg0.N, (cfg0.win 12).flush t = true ∧ i ∈ ((cfg0.win 12).blk t).view.set := by
  have hi0 : (i 0).val < 1024 := (i 0).isLt
  have hi1 : (i 1).val < 2048 := (i 1).isLt
  have hN : cfg0.N = 16 := N_0
  have hlt : (i 1).val / 128 < cfg0.N := by rw [hN]; omega
  refine ⟨⟨(i 1).val / 128, hlt⟩, flush0_12 _, ?_⟩
  rw [mem_block_12]
  obtain ⟨e0, e1⟩ := index_12 ⟨(i 1).val / 128, hlt⟩
  intro a
  match a with
  | ⟨0, _⟩ => show win0_12.index _ (0 : Fin 2) * 1024 ≤ (i 0).val ∧ (i 0).val < win0_12.index _ (0 : Fin 2) * 1024 + 1024; rw [e0]; omega
  | ⟨1, _⟩ => show win0_12.index _ (1 : Fin 2) * 128 ≤ (i 1).val ∧ (i 1).val < win0_12.index _ (1 : Fin 2) * 128 + 128; rw [e1]; show (i 1).val / 128 * 128 ≤ (i 1).val ∧ (i 1).val < (i 1).val / 128 * 128 + 128; omega

/-- The hidden array after the run is the reference's stage of the arguments. -/
theorem final_12 (hfin : ∀ c : Dev nD, (∀ i, ∃ v : ℝ, (m ((c : Thread nD τ).loc main_arg0)) i = (v : EReal)) ∧ (∀ i, ∃ v : ℝ, (m ((c : Thread nD τ).loc main_arg1)) i = (v : EReal)) ∧ (∀ i, ∃ v : ℝ, (m ((c : Thread nD τ).loc main_arg2)) i = (v : EReal))
      ∧ (∀ i, ∃ v : ℝ, (m ((c : Thread nD τ).loc main_arg3)) i = (v : EReal)) ∧ (∀ i, ∃ v : ℝ, (m ((c : Thread nD τ).loc main_arg4)) i = (v : EReal)) ∧ (∀ i, ∃ v : ℝ, (m ((c : Thread nD τ).loc main_arg5)) i = (v : EReal))
      ∧ (∀ i, ∃ v : ℝ, (m ((c : Thread nD τ).loc main_arg6)) i = (v : EReal)) ∧ (∀ i, ∃ v : ℝ, (m ((c : Thread nD τ).loc main_arg7)) i = (v : EReal)) ∧ (∀ i, ∃ v : ℝ, (m ((c : Thread nD τ).loc main_arg8)) i = (v : EReal))
      ∧ (∀ i, ∃ v : ℝ, (m ((c : Thread nD τ).loc main_arg9)) i = (v : EReal))) (c : Dev nD) :
    (dats m 0 c).arrAt 12 cfg0.N = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 12 _ (fun t _ => written_12 m hfin c t) covered_12

/-- What tile `t` writes back into the cell array is block `t` of the reference's stage of the arguments. -/
theorem written_13 (hfin : ∀ c : Dev nD, (∀ i, ∃ v : ℝ, (m ((c : Thread nD τ).loc main_arg0)) i = (v : EReal)) ∧ (∀ i, ∃ v : ℝ, (m ((c : Thread nD τ).loc main_arg1)) i = (v : EReal)) ∧ (∀ i, ∃ v : ℝ, (m ((c : Thread nD τ).loc main_arg2)) i = (v : EReal))
      ∧ (∀ i, ∃ v : ℝ, (m ((c : Thread nD τ).loc main_arg3)) i = (v : EReal)) ∧ (∀ i, ∃ v : ℝ, (m ((c : Thread nD τ).loc main_arg4)) i = (v : EReal)) ∧ (∀ i, ∃ v : ℝ, (m ((c : Thread nD τ).loc main_arg5)) i = (v : EReal))
      ∧ (∀ i, ∃ v : ℝ, (m ((c : Thread nD τ).loc main_arg6)) i = (v : EReal)) ∧ (∀ i, ∃ v : ℝ, (m ((c : Thread nD τ).loc main_arg7)) i = (v : EReal)) ∧ (∀ i, ∃ v : ℝ, (m ((c : Thread nD τ).loc main_arg8)) i = (v : EReal))
      ∧ (∀ i, ∃ v : ℝ, (m ((c : Thread nD τ).loc main_arg9)) i = (v : EReal))) (c : Dev nD) (t : Fin cfg0.N) :
    (dats m 0 c).flushed 13 t = ((cfg0.win 13).blk t).view.read (Elt Ideal) (Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  obtain ⟨f0, f1, f2, f3, f4, f5, f6, f7, f8, f9⟩ := hfin c
  show (cfg0.win 13).cut (grid0.coords t) ((dats m 0 c).after 13 t) = _
  rw [after_13]
  unfold cellOut cellValue forgetGate inputGate candidate
  rw [View.canon_unit_zero zero_offsets]
  simp only [View.ld_unit_zero (S := S1024x128) zero_offsets, View.ld_unit_zero (S := S1x128) zero_offsets, View.ld_unit_zero (S := S4096x3072) zero_offsets, View.ld_unit_zero (S := S4096x1) zero_offsets, View.ld_unit_zero (S := S1x1024) zero_offsets, View.ld_unit_zero (S := S1x1) zero_offsets]
  rw [block_0 m c t, block_1 m c t, block_6 m c t, block_7 m c t, block_8 m c t, block_9 m c t, block_10 m c t, block_11 m c t]
  funext j
  obtain ⟨p, q, rfl⟩ : ∃ (p : Fin 1024) (q : Fin 128), j = ix2 p q := ⟨j 0, j 1, eq_ix2 j⟩
  refine (cell_eq (tile t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) f1 f2 f3 f4 f6 f7 f8 p q).trans ?_
  show Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) _ = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 13).blk t).view.emb (ix2 p q))
  congr 1
  funext a; apply Fin.ext
  obtain ⟨e0, e1⟩ := index_13 t
  match a with
  | ⟨0, _⟩ => show p.val = win0_13.index t (0 : Fin 2) * 1024 + 1 * p.val; rw [e0]; omega
  | ⟨1, _⟩ => show t.val * 128 + q.val = win0_13.index t (1 : Fin 2) * 128 + 1 * q.val; rw [e1]; omega

/-- An index of the cell array is in tile `t`'s block iff each coordinate is in the block's range. -/
theorem mem_block_13 (t : Fin cfg0.N) (i : S1024x2048.Idx) :
    i ∈ ((cfg0.win 13).blk t).view.set ↔ ∀ a : Fin 2, win0_13.index t a * S1024x128.size a ≤ (i a).val ∧ (i a).val < win0_13.index t a * S1024x128.size a + S1024x128.size a := by
  show i ∈ ((View.whole main_v12_1).slice (win0_13.rect t)).set ↔ _
  rw [View.set_slice_whole, Rect.mem_set_unit]
  exact Iff.rfl

/-- Every index of the cell array lies in the block of the tile its column falls in. -/
theorem covered_13 (i : S1024x2048.Idx) : ∃ t : Fin cfg0.N, (cfg0.win 13).flush t = true ∧ i ∈ ((cfg0.win 13).blk t).view.set := by
  have hi0 : (i 0).val < 1024 := (i 0).isLt
  have hi1 : (i 1).val < 2048 := (i 1).isLt
  have hN : cfg0.N = 16 := N_0
  have hlt : (i 1).val / 128 < cfg0.N := by rw [hN]; omega
  refine ⟨⟨(i 1).val / 128, hlt⟩, flush0_13 _, ?_⟩
  rw [mem_block_13]
  obtain ⟨e0, e1⟩ := index_13 ⟨(i 1).val / 128, hlt⟩
  intro a
  match a with
  | ⟨0, _⟩ => show win0_13.index _ (0 : Fin 2) * 1024 ≤ (i 0).val ∧ (i 0).val < win0_13.index _ (0 : Fin 2) * 1024 + 1024; rw [e0]; omega
  | ⟨1, _⟩ => show win0_13.index _ (1 : Fin 2) * 128 ≤ (i 1).val ∧ (i 1).val < win0_13.index _ (1 : Fin 2) * 128 + 128; rw [e1]; show (i 1).val / 128 * 128 ≤ (i 1).val ∧ (i 1).val < (i 1).val / 128 * 128 + 128; omega

/-- The cell array after the run is the reference's stage of the arguments. -/
theorem final_13 (hfin : ∀ c : Dev nD, (∀ i, ∃ v : ℝ, (m ((c : Thread nD τ).loc main_arg0)) i = (v : EReal)) ∧ (∀ i, ∃ v : ℝ, (m ((c : Thread nD τ).loc main_arg1)) i = (v : EReal)) ∧ (∀ i, ∃ v : ℝ, (m ((c : Thread nD τ).loc main_arg2)) i = (v : EReal))
      ∧ (∀ i, ∃ v : ℝ, (m ((c : Thread nD τ).loc main_arg3)) i = (v : EReal)) ∧ (∀ i, ∃ v : ℝ, (m ((c : Thread nD τ).loc main_arg4)) i = (v : EReal)) ∧ (∀ i, ∃ v : ℝ, (m ((c : Thread nD τ).loc main_arg5)) i = (v : EReal))
      ∧ (∀ i, ∃ v : ℝ, (m ((c : Thread nD τ).loc main_arg6)) i = (v : EReal)) ∧ (∀ i, ∃ v : ℝ, (m ((c : Thread nD τ).loc main_arg7)) i = (v : EReal)) ∧ (∀ i, ∃ v : ℝ, (m ((c : Thread nD τ).loc main_arg8)) i = (v : EReal))
      ∧ (∀ i, ∃ v : ℝ, (m ((c : Thread nD τ).loc main_arg9)) i = (v : EReal))) (c : Dev nD) :
    (dats m 0 c).arrAt 13 cfg0.N = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 13 _ (fun t _ => written_13 m hfin c t) covered_13

/-- What tile `t` writes back into the boundary array is block `t` of the reference's stage of the arguments. -/
theorem written_14 (hfin : ∀ c : Dev nD, (∀ i, ∃ v : ℝ, (m ((c : Thread nD τ).loc main_arg0)) i = (v : EReal)) ∧ (∀ i, ∃ v : ℝ, (m ((c : Thread nD τ).loc main_arg1)) i = (v : EReal)) ∧ (∀ i, ∃ v : ℝ, (m ((c : Thread nD τ).loc main_arg2)) i = (v : EReal))
      ∧ (∀ i, ∃ v : ℝ, (m ((c : Thread nD τ).loc main_arg3)) i = (v : EReal)) ∧ (∀ i, ∃ v : ℝ, (m ((c : Thread nD τ).loc main_arg4)) i = (v : EReal)) ∧ (∀ i, ∃ v : ℝ, (m ((c : Thread nD τ).loc main_arg5)) i = (v : EReal))
      ∧ (∀ i, ∃ v : ℝ, (m ((c : Thread nD τ).loc main_arg6)) i = (v : EReal)) ∧ (∀ i, ∃ v : ℝ, (m ((c : Thread nD τ).loc main_arg7)) i = (v : EReal)) ∧ (∀ i, ∃ v : ℝ, (m ((c : Thread nD τ).loc main_arg8)) i = (v : EReal))
      ∧ (∀ i, ∃ v : ℝ, (m ((c : Thread nD τ).loc main_arg9)) i = (v : EReal))) (c : Dev nD) (t : Fin cfg0.N) :
    (dats m 0 c).flushed 14 t = ((cfg0.win 14).blk t).view.read (Elt Ideal) (Cert.ReferenceIdeal.Read.val_main_v86 (F := Ideal) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) := by
  obtain ⟨f0, f1, f2, f3, f4, f5, f6, f7, f8, f9⟩ := hfin c
  show (cfg0.win 14).cut (grid0.coords t) ((dats m 0 c).after 14 t) = _
  rw [after_14]
  unfold boundaryOut boundaryValue
  rw [View.canon_unit_zero zero_offsets]
  simp only [View.ld_unit_zero (S := S1024x128) zero_offsets, View.ld_unit_zero (S := S1x128) zero_offsets, View.ld_unit_zero (S := S4096x3072) zero_offsets, View.ld_unit_zero (S := S4096x1) zero_offsets, View.ld_unit_zero (S := S1x1024) zero_offsets, View.ld_unit_zero (S := S1x1) zero_offsets]
  rw [block_2 m c t, block_3 m c t, block_4 m c t, block_5 m c t, block_6 m c t, block_7 m c t, block_8 m c t, block_10 m c t]
  funext j
  obtain ⟨p, q, rfl⟩ : ∃ (p : Fin 1) (q : Fin 128), j = ix2 p q := ⟨j 0, j 1, eq_ix2 j⟩
  have hp : p = 0 := Subsingleton.elim _ _
  subst hp
  refine (boundary_eq (tile t) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) f1 f2 f3 f4 f6 f7 f8 f9 q).trans ?_
  show Cert.ReferenceIdeal.Read.val_main_v86 (F := Ideal) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) _ = Cert.ReferenceIdeal.Read.val_main_v86 (F := Ideal) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (((cfg0.win 14).blk t).view.emb (ix2 (0 : Fin 1) q))
  congr 1
  funext a; apply Fin.ext
  obtain ⟨e0, e1⟩ := index_14 t
  match a with
  | ⟨0, _⟩ => show 0 = win0_14.index t (0 : Fin 2) * 1 + 1 * 0; rw [e0]
  | ⟨1, _⟩ => show t.val * 128 + q.val = win0_14.index t (1 : Fin 2) * 128 + 1 * q.val; rw [e1]; omega

/-- An index of the boundary array is in tile `t`'s block iff each coordinate is in the block's range. -/
theorem mem_block_14 (t : Fin cfg0.N) (i : S1x2048.Idx) :
    i ∈ ((cfg0.win 14).blk t).view.set ↔ ∀ a : Fin 2, win0_14.index t a * S1x128.size a ≤ (i a).val ∧ (i a).val < win0_14.index t a * S1x128.size a + S1x128.size a := by
  show i ∈ ((View.whole main_v12_2).slice (win0_14.rect t)).set ↔ _
  rw [View.set_slice_whole, Rect.mem_set_unit]
  exact Iff.rfl

/-- Every index of the boundary array lies in the block of the tile its column falls in. -/
theorem covered_14 (i : S1x2048.Idx) : ∃ t : Fin cfg0.N, (cfg0.win 14).flush t = true ∧ i ∈ ((cfg0.win 14).blk t).view.set := by
  have hi0 : (i 0).val < 1 := (i 0).isLt
  have hi1 : (i 1).val < 2048 := (i 1).isLt
  have hN : cfg0.N = 16 := N_0
  have hlt : (i 1).val / 128 < cfg0.N := by rw [hN]; omega
  refine ⟨⟨(i 1).val / 128, hlt⟩, flush0_14 _, ?_⟩
  rw [mem_block_14]
  obtain ⟨e0, e1⟩ := index_14 ⟨(i 1).val / 128, hlt⟩
  intro a
  match a with
  | ⟨0, _⟩ => show win0_14.index _ (0 : Fin 2) * 1 ≤ (i 0).val ∧ (i 0).val < win0_14.index _ (0 : Fin 2) * 1 + 1; rw [e0]; omega
  | ⟨1, _⟩ => show win0_14.index _ (1 : Fin 2) * 128 ≤ (i 1).val ∧ (i 1).val < win0_14.index _ (1 : Fin 2) * 128 + 128; rw [e1]; show (i 1).val / 128 * 128 ≤ (i 1).val ∧ (i 1).val < (i 1).val / 128 * 128 + 128; omega

/-- The boundary array after the run is the reference's stage of the arguments. -/
theorem final_14 (hfin : ∀ c : Dev nD, (∀ i, ∃ v : ℝ, (m ((c : Thread nD τ).loc main_arg0)) i = (v : EReal)) ∧ (∀ i, ∃ v : ℝ, (m ((c : Thread nD τ).loc main_arg1)) i = (v : EReal)) ∧ (∀ i, ∃ v : ℝ, (m ((c : Thread nD τ).loc main_arg2)) i = (v : EReal))
      ∧ (∀ i, ∃ v : ℝ, (m ((c : Thread nD τ).loc main_arg3)) i = (v : EReal)) ∧ (∀ i, ∃ v : ℝ, (m ((c : Thread nD τ).loc main_arg4)) i = (v : EReal)) ∧ (∀ i, ∃ v : ℝ, (m ((c : Thread nD τ).loc main_arg5)) i = (v : EReal))
      ∧ (∀ i, ∃ v : ℝ, (m ((c : Thread nD τ).loc main_arg6)) i = (v : EReal)) ∧ (∀ i, ∃ v : ℝ, (m ((c : Thread nD τ).loc main_arg7)) i = (v : EReal)) ∧ (∀ i, ∃ v : ℝ, (m ((c : Thread nD τ).loc main_arg8)) i = (v : EReal))
      ∧ (∀ i, ∃ v : ℝ, (m ((c : Thread nD τ).loc main_arg9)) i = (v : EReal))) (c : Dev nD) :
    (dats m 0 c).arrAt 14 cfg0.N = Cert.ReferenceIdeal.Read.val_main_v86 (F := Ideal) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) :=
  (dats m 0 c).arrAt_eq_of_cover 14 _ (fun t _ => written_14 m hfin c t) covered_14

/-! ## The run, read -/

/-- At finite arguments every execution of the idealized kernel terminates with its three result arrays at the reference's
    three stages of the arguments, and the arguments unchanged. -/
theorem run (hfin : ∀ c : Dev nD, (∀ i, ∃ v : ℝ, (m ((c : Thread nD τ).loc main_arg0)) i = (v : EReal)) ∧ (∀ i, ∃ v : ℝ, (m ((c : Thread nD τ).loc main_arg1)) i = (v : EReal)) ∧ (∀ i, ∃ v : ℝ, (m ((c : Thread nD τ).loc main_arg2)) i = (v : EReal))
      ∧ (∀ i, ∃ v : ℝ, (m ((c : Thread nD τ).loc main_arg3)) i = (v : EReal)) ∧ (∀ i, ∃ v : ℝ, (m ((c : Thread nD τ).loc main_arg4)) i = (v : EReal)) ∧ (∀ i, ∃ v : ℝ, (m ((c : Thread nD τ).loc main_arg5)) i = (v : EReal))
      ∧ (∀ i, ∃ v : ℝ, (m ((c : Thread nD τ).loc main_arg6)) i = (v : EReal)) ∧ (∀ i, ∃ v : ℝ, (m ((c : Thread nD τ).loc main_arg7)) i = (v : EReal)) ∧ (∀ i, ∃ v : ℝ, (m ((c : Thread nD τ).loc main_arg8)) i = (v : EReal))
      ∧ (∀ i, ∃ v : ℝ, (m ((c : Thread nD τ).loc main_arg9)) i = (v : EReal))) :
    θ_run defs (onTc (τ := τ) (main (F := Ideal))) ⟨m, fun _ => 0, ρ⟩ fun r => ∀ c : Dev nD,
      r.2.mem ((c.tc : Thread nD τ).loc main_v12_0) = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_v12_1) = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_v12_2) = Cert.ReferenceIdeal.Read.val_main_v86 (F := Ideal) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).1 12).trans (final_12 m hfin c), ((h c).1 13).trans (final_13 m hfin c), ((h c).1 14).trans (final_14 m hfin c),
      ((h c).1 9).trans (((dats m 0 c).arrAt_in 9 rfl _).trans ((A_eq m c 9).trans (atEntry_arg0 m c))),
      ((h c).1 6).trans (((dats m 0 c).arrAt_in 6 rfl _).trans ((A_eq m c 6).trans (atEntry_arg1 m c))),
      ((h c).1 7).trans (((dats m 0 c).arrAt_in 7 rfl _).trans ((A_eq m c 7).trans (atEntry_arg2 m c))),
      ((h c).1 8).trans (((dats m 0 c).arrAt_in 8 rfl _).trans ((A_eq m c 8).trans (atEntry_arg3 m c))),
      ((h c).1 10).trans (((dats m 0 c).arrAt_in 10 rfl _).trans ((A_eq m c 10).trans (atEntry_arg4 m c))),
      ((h c).1 11).trans (((dats m 0 c).arrAt_in 11 rfl _).trans ((A_eq m c 11).trans (atEntry_arg5 m c))),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c),
      ((h c).2 main_arg8 (Pipeline.mem_restRefs_of main_arg8 (by decide) (by decide))).trans (atEntry_arg8 m c),
      ((h c).2 main_arg9 (Pipeline.mem_restRefs_of main_arg9 (by decide) (by decide))).trans (atEntry_arg9 m c)⟩)
    (run_main m ρ)

end Cert.KernelIdeal.Tile

end
-- ==== Proof.lean ====
/-
  The certificate of the hierarchical multiscale LSTM cell: a tiled kernel against its plain reference.

  The kernel fuses the three gate contractions into one over 3072 terms, with the own and upper states multiplied by the
  boundary indicator BEFORE the contraction, computes the boundary row by three separate contractions, and returns the
  hard boundary decision; the reference contracts the three weight matrices separately, multiplies by the indicator
  AFTERWARDS, and returns the decision in straight-through form  ẑ + (hard − ẑ).  At the exact (extended-real) values
  and finite inputs these agree entry by entry: the indicator crosses a finite sum by distributivity, the clipped value
  ẑ is a real number so the straight-through form collapses, and everything downstream of the gate pre-activations is
  the same expression in both programs.

  * the three frames: each program runs to the end, faults nowhere, and leaves its ten argument arrays as launched
    (the two kernels': the run of the one launch over sixteen column tiles; the reference's: its host run);
  * `preserves`: the idealization rewrote nothing, so there is nothing to state;
  * `algebraic`: the idealized kernel's three result arrays, as whole-array functions of the arguments (tile by tile,
    then the cover), are the reference's three results.
-/
import proofs.«120162_j41540923687172_2_alg».proof.Defs
import proofs.«120162_j41540923687172_2_alg».proof.Proof.Gen.Kernel
import proofs.«120162_j41540923687172_2_alg».proof.Proof.Gen.KernelIdeal
import proofs.«120162_j41540923687172_2_alg».proof.Proof.Gen.ReferenceIdeal
import proofs.«120162_j41540923687172_2_alg».proof.Proof.Gen.Pre_finite_inputs
import proofs.«120162_j41540923687172_2_alg».proof.Proof.Gen.ReferenceIdeal.Read
import proofs.«120162_j41540923687172_2_alg».proof.Proof.FrameBits
import proofs.«120162_j41540923687172_2_alg».proof.Proof.FrameIdeal
import proofs.«120162_j41540923687172_2_alg».proof.Proof.Finite
import proofs.«120162_j41540923687172_2_alg».proof.Proof.Tile
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Frame.frame m ρ

/-- So does its idealization. -/
theorem frame_ideal : Cert.frame_KernelIdeal := fun m ρ _ => Cert.KernelIdeal.Frame.frame m ρ

/-- The reference's host run, its three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories agreeing on the ten arguments, all finite: the idealized kernel's result arrays are the reference's
    three stages of the arguments (the tile module), and the reference's run ends at those stages of its own — equal —
    arguments. -/
theorem algebraic : Cert.algebraic_KernelIdeal_ReferenceIdeal := by
  intro m ρ m' ρ' hpre hagree
  have hfin := fun c => Cert.Finite.entries_real _ _ _ _ _ _ _ _ _ _ (hpre c)
  refine ⟨_, _, _, Cert.KernelIdeal.Tile.run m ρ hfin, ?_⟩
  refine (θ_run Cert.ReferenceIdeal.defs _ _).mono (fun _ h c => ?_) (Cert.ReferenceIdeal.Value.run (F := Ideal) m' ρ')
  obtain ⟨h0, h1, h2, hargs⟩ := h c
  obtain ⟨a0, a1, a2, a3, a4, a5, a6, a7, a8, a9⟩ := hagree c
  refine ⟨?_, ?_, ?_, hargs⟩
  · rw [h0, Cert.ReferenceIdeal.Read.val_main_v81_eq, a0, a1, a2, a3, a4, a5, a6, a7, a8, a9]
  · rw [h1, Cert.ReferenceIdeal.Read.val_main_v62_eq, a0, a1, a2, a3, a4, a5, a6, a7, a8, a9]
  · rw [h2, Cert.ReferenceIdeal.Read.val_main_v86_eq, a1, a2, a3, a4, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
